-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x64 : Shape := ⟨3, ![128, 2048, 64]⟩
abbrev S_ : Shape := ⟨0, ![]⟩

class Facts : Prop where
  bcast_S_S128x2048x64 : S_.BroadcastsInDim S128x2048x64 (![] : Fin 0 → Fin S128x2048x64.rank)
  reducesTo_S128x2048x64_S_d0_1_2 : S128x2048x64.ReducesTo [0, 1, 2] S_
  h_S_ : 0 < S_.numel

variable [Facts]

def fn {F : FTy → Type} [FloatOps F] (main_arg0 : FVec F S128x2048x64 .f32) : IVec S_ 1 :=
  let main_v0 : FVec F S128x2048x64 .f32 := Host.absf main_arg0
  let main_cst : FVec F S_ .f32 := constant S_ .f32 0x7F800000#32
  let main_v1 : FVec F S128x2048x64 .f32 := broadcastInDim S128x2048x64 ![] bcast_S_S128x2048x64 main_cst
  let main_v2 : IVec S128x2048x64 1 := cmpf .olt main_v0 main_v1
  let main_c : IVec S_ 1 := constantI S_ 1 1#1
  let main_v3 : IVec S_ 1 := (fun x v => Host.reduce IntOp.andi x v reducesTo_S128x2048x64_S_d0_1_2 h_S_) main_v2 main_c
  main_v3
-- ==== Kernel.lean ====
abbrev S128x2048x64 : Shape := ⟨3, ![128, 2048, 64]⟩
abbrev S128x2048x128 : Shape := ⟨3, ![128, 2048, 128]⟩
abbrev S64x128x64 : Shape := ⟨3, ![64, 128, 64]⟩
abbrev S64x128x128 : Shape := ⟨3, ![64, 128, 128]⟩
abbrev S64x64 : Shape := ⟨2, ![64, 64]⟩
abbrev S64x64x128 : Shape := ⟨3, ![64, 64, 128]⟩
abbrev S64x64x1 : Shape := ⟨3, ![64, 64, 1]⟩

abbrev nBuf : Space → Nat
  | .hbm => 2
  | .vmem => 5
  | .smem => 0
  | _ => 0

abbrev bufTy : (tb : Table) → Fin (tcTables nBuf tb) → BufTy
  | .hbm, ⟨0, _⟩ => ⟨S128x2048x64, .f32⟩
  | .hbm, ⟨1, _⟩ => ⟨S128x2048x128, .f32⟩
  | .local _ .vmem, ⟨0, _⟩ => ⟨S64x128x64, .f32⟩
  | .local _ .vmem, ⟨1, _⟩ => ⟨S64x128x64, .f32⟩
  | .local _ .vmem, ⟨2, _⟩ => ⟨S64x128x128, .f32⟩
  | .local _ .vmem, ⟨3, _⟩ => ⟨S64x128x128, .f32⟩
  | .local _ .vmem, ⟨4, _⟩ => ⟨S64x64, .f32⟩
  | _, _ => ⟨S128x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128x64_S64x128x64_0_0_0 : ∀ a, (![0, 0, 0] : Fin 3 → Nat) a + S64x128x64.size a ≤ S64x128x64.size a
  h_S64x128x64 : 0 < S64x128x64.numel
  transposes_S64x128x64_p0_2_1_S64x64x128 : S64x128x64.Transposes [0, 2, 1] S64x64x128
  iota_S64x64x128_d2_w32 : S64x64x128.Iotas .tc 32 [2]
  rotates_S64x64x128_d2 : S64x64x128.Rotates 2 none
  shapeCasts_S64x64_S64x64x1 : S64x64.ShapeCasts S64x64x1
  shapeCasts_S64x64x1_S64x64x1 : S64x64x1.ShapeCasts S64x64x1
  broadcasts_S64x64x1_S64x64x128 : S64x64x1.Broadcasts S64x64x128
  slices_S64x64x128_o0_0_127_S64x64x1 : S64x64x128.Slices ![0, 0, 127] S64x64x1
  shapeCasts_S64x64x1_S64x64 : S64x64x1.ShapeCasts S64x64
  transposes_S64x64x128_p0_2_1_S64x128x64 : S64x64x128.Transposes [0, 2, 1] S64x128x64
  natLt_1_32 : 1 < 32
  concatenates_S64x128x64_S64x128x64_S64x128x128_d2 : Shape.Concatenates [S64x128x64, S64x128x64] S64x128x128 2
  inb_S64x128x128_S64x128x128_0_0_0 : ∀ a, (![0, 0, 0] : Fin 3 → Nat) a + S64x128x128.size a ≤ S64x128x128.size a
  h_S64x128x128 : 0 < S64x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S128x2048x64.size a
  hwx0_0 : ∀ i : grid0.Coords, EltTy.bits .f32 = 32 ∨ (Rect.block (s := S128x2048x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S128x2048x128.size a
  hwx0_1 : ∀ i : grid0.Coords, EltTy.bits .f32 = 32 ∨ (Rect.block (s := S128x2048x128) S64x128x128.size (cc0_transform_1 i) (hinb0_1 i)).WholeWords (EltTy.packing .f32)

variable [Facts₀]

abbrev win0_0 : Pipeline.Window sig grid0 :=
  Pipeline.Window.ofSpec (Memref.whole main_arg0) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x2048x64 : Shape := ⟨3, ![128, 2048, 64]⟩
abbrev S_ : Shape := ⟨0, ![]⟩
abbrev S2048 : Shape := ⟨1, ![2048]⟩
abbrev S1x2048x1 : Shape := ⟨3, ![1, 2048, 1]⟩
abbrev S128x2048x64x1 : Shape := ⟨4, ![128, 2048, 64, 1]⟩
abbrev S1 : Shape := ⟨1, ![1]⟩
abbrev S1x1x1x1 : Shape := ⟨4, ![1, 1, 1, 1]⟩
abbrev S128x2048x128 : Shape := ⟨3, ![128, 2048, 128]⟩

abbrev nBuf : Space → Nat
  | .hbm => 44
  | .vmem => 0
  | .smem => 0
  | _ => 0

abbrev bufTy : (tb : Table) → Fin (tcTables nBuf tb) → BufTy
  | .hbm, ⟨0, _⟩ => ⟨S128x2048x64, .f32⟩
  | .hbm, ⟨1, _⟩ => ⟨S_, .f32⟩
  | .hbm, ⟨2, _⟩ => ⟨S128x2048x64, .f32⟩
  | .hbm, ⟨3, _⟩ => ⟨S128x2048x64, .i1⟩
  | .hbm, ⟨4, _⟩ => ⟨S2048, .i32⟩
  | .hbm, ⟨5, _⟩ => ⟨S1x2048x1, .i32⟩
  | .hbm, ⟨6, _⟩ => ⟨S_, .i32⟩
  | .hbm, ⟨7, _⟩ => ⟨S128x2048x64, .i32⟩
  | .hbm, ⟨8, _⟩ => ⟨S128x2048x64, .i32⟩
  | .hbm, ⟨9, _⟩ => ⟨S128x2048x64, .i32⟩
  | .hbm, ⟨10, _⟩ => ⟨S_, .i32⟩
  | .hbm, ⟨11, _⟩ => ⟨S_, .i32⟩
  | .hbm, ⟨12, _⟩ => ⟨S128x2048x64, .i32⟩
  | .hbm, ⟨13, _⟩ => ⟨S_, .i32⟩
  | .hbm, ⟨14, _⟩ => ⟨S128x2048x64, .i32⟩
  | .hbm, ⟨15, _⟩ => ⟨S128x2048x64, .i32⟩
  | .hbm, ⟨16, _⟩ => ⟨S_, .i32⟩
  | .hbm, ⟨17, _⟩ => ⟨S128x2048x64, .i32⟩
  | .hbm, ⟨18, _⟩ => ⟨S128x2048x64, .i1⟩
  | .hbm, ⟨19, _⟩ => ⟨S_, .i32⟩
  | .hbm, ⟨20, _⟩ => ⟨S128x2048x64, .i32⟩
  | .hbm, ⟨21, _⟩ => ⟨S128x2048x64, .i32⟩
  | .hbm, ⟨22, _⟩ => ⟨S128x2048x64, .i32⟩
  | .hbm, ⟨23, _⟩ => ⟨S128x2048x64x1, .i32⟩
  | .hbm, ⟨24, _⟩ => ⟨S1, .i32⟩
  | .hbm, ⟨25, _⟩ => ⟨S_, .i32⟩
  | .hbm, ⟨26, _⟩ => ⟨S128x2048x64x1, .i32⟩
  | .hbm, ⟨27, _⟩ => ⟨S128x2048x64x1, .i1⟩
  | .hbm, ⟨28, _⟩ => ⟨S1x1x1x1, .i32⟩
  | .hbm, ⟨29, _⟩ => ⟨S128x2048x64x1, .i32⟩
  | .hbm, ⟨30, _⟩ => ⟨S128x2048x64x1, .i1⟩
  | .hbm, ⟨31, _⟩ => ⟨S128x2048x64x1, .i1⟩
  | .hbm, ⟨32, _⟩ => ⟨S_, .i1⟩
  | .hbm, ⟨33, _⟩ => ⟨S128x2048x64, .i1⟩
  | .hbm, ⟨34, _⟩ => ⟨S128x2048x64, .f32⟩
  | .hbm, ⟨35, _⟩ => ⟨S_, .f32⟩
  | .hbm, ⟨36, _⟩ => ⟨S128x2048x64, .f32⟩
  | .hbm, ⟨37, _⟩ => ⟨S128x2048x64, .f32⟩
  | .hbm, ⟨38, _⟩ => ⟨S_, .i32⟩
  | .hbm, ⟨39, _⟩ => ⟨S128x2048x64, .i32⟩
  | .hbm, ⟨40, _⟩ => ⟨S128x2048x64, .i1⟩
  | .hbm, ⟨41, _⟩ => ⟨S128x2048x64, .f32⟩
  | .hbm, ⟨42, _⟩ => ⟨S128x2048x64, .f32⟩
  | .hbm, ⟨43, _⟩ => ⟨S128x2048x128, .f32⟩
  | _, _ => ⟨S128x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_call1_c : Ref sig .tc := ⟨.hbm, 10, rfl⟩
abbrev main_call1_v0 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_cst : Ref sig .tc := ⟨.hbm, 35, rfl⟩
abbrev main_call2_v14 : Ref sig .tc := ⟨.hbm, 36, rfl⟩
abbrev main_v8 : Ref sig .tc := ⟨.hbm, 37, rfl⟩
abbrev main_c_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩

abbrev nD : Nat := 1
abbrev τ : Topo := Topo.v7x

variable {F : FTy → Type} [FloatOps F]

class Facts₀ : Prop where
  bcast_S_S128x2048x64 : S_.BroadcastsInDim S128x2048x64 (![] : Fin 0 → Fin S128x2048x64.rank)
  bcast_S2048_S1x2048x1_1 : S2048.BroadcastsInDim S1x2048x1 (![1] : Fin 1 → Fin S1x2048x1.rank)
  bcast_S1x2048x1_S128x2048x64_0_1_2 : S1x2048x1.BroadcastsInDim S128x2048x64 (![0, 1, 2] : Fin 3 → Fin S128x2048x64.rank)
  bcast_S_S_ : S_.BroadcastsInDim S_ (![] : Fin 0 → Fin S_.rank)
  reduceWindows_S128x2048x64_S128x2048x64_w1s1p0_0_w2048s1p2047_0_w1s1p0_0 : S128x2048x64.ReduceWindows (![1, 2048, 1] : Fin 3 → Nat) ![1, 1, 1] ![0, 2047, 0] ![0, 0, 0] S128x2048x64
  h_S_ : 0 < S_.numel
  shapeCasts_S128x2048x64_S128x2048x64x1 : S128x2048x64.ShapeCasts S128x2048x64x1
  bcast_S_S128x2048x64x1 : S_.BroadcastsInDim S128x2048x64x1 (![] : Fin 0 → Fin S128x2048x64x1.rank)
  bcast_S1_S1x1x1x1_3 : S1.BroadcastsInDim S1x1x1x1 (![3] : Fin 1 → Fin S1x1x1x1.rank)
  bcast_S1x1x1x1_S128x2048x64x1_0_1_2_3 : S1x1x1x1.BroadcastsInDim S128x2048x64x1 (![0, 1, 2, 3] : Fin 4 → Fin S128x2048x64x1.rank)
  reducesTo_S128x2048x64x1_S128x2048x64_d3 : S128x2048x64x1.ReducesTo [3] S128x2048x64
  concatenates_S128x2048x64_S128x2048x64_S128x2048x128_d2 : Shape.Concatenates [S128x2048x64, S128x2048x64] S128x2048x128 2
  gather_S128x2048x64_S128x2048x64x1_S128x2048x64_n_1_02_02_1_3_111_wf : GatherDims.WF S128x2048x64 S128x2048x64x1 S128x2048x64 [] [1] [0, 2] [1] [0, 2] 3 ![1, 1, 1]

variable [Facts₀]

def gather_S128x2048x64_S128x2048x64x1_S128x2048x64_n_1_02_02_1_3_111 : GatherDims S128x2048x64 S128x2048x64x1 S128x2048x64 where
  offsetDims := []
  collapsedSliceDims := [1]
  operandBatchingDims := [0, 2]
  startIndicesBatchingDims := [0, 2]
  startIndexMap := [1]
  indexVectorDim := 3
  sliceSizes := ![1, 1, 1]
  wf := gather_S128x2048x64_S128x2048x64x1_S128x2048x64_n_1_02_02_1_3_111_wf

class Facts : Prop extends Facts₀ where

variable [Facts]
-- ==== Proof.Pieces.lean ====
/-
  What one run of the kernel body leaves behind, as values.

  The body works on one block of the input: 64 batch rows, 128 time steps, 64 features.  It leaves two things: the
  output block (the forward-filled block beside the block's zero indicators) and the carried array (for every batch row
  and feature, the filled value at the block's last time step).  At the first block of a row of blocks the carried
  array is first reset to zero; at every other block the body starts from what the block before left.  The four
  statements below say so for the two cases, over the body's own arithmetic.
-/
import proofs.«107866_j72773925864084_2_alg».proof.Proof.Gen.KernelIdeal.Frame
import Idealize.ShloMosaic.Lib.Pipeline.Value
import Idealize.ShloMosaic.Lib.Tactic

noncomputable section
namespace Cert.KernelIdeal.Pieces
open Cert.KernelIdeal Cert.KernelIdeal.Gen Idealize.ShloMosaic Idealize.ShloMosaic.TcCoe Idealize.SL.Sem
open Idealize.ShloMosaic.Pipeline (Dat)
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The position along the time axis of the transposed block. -/
abbrev pos : IVec S64x64x128 32 := iota .tc S64x64x128 32 [2] iota_S64x64x128_d2_w32

variable (c : Dev nD) (i : grid0.Coords) (a2 : Memref sig .tc .vmem S64x128x64 .f32) (h2 : a2.IsWhole)
    (a3 : Memref sig .tc .vmem S64x128x128 .f32) (h3 : a3.IsWhole) (a4 : Memref sig .tc .vmem S64x64 .f32) (h4 : a4.IsWhole)

/-- A block after the first of its row of blocks: the output block is the body's join of the filled block, computed
    over the carried array `xs0` the block before left, with the indicators of the block. -/
theorem out_B (hc : ¬cond0_0 i) (x0 : Vec F S64x128x64 .f32) (xs0 : Vec F S64x64 .f32) :
    out0_B_1 c i a2 h2 a3 h3 a4 h4 hc x0 xs0 = k0_pay1 (k0_pay8 pos (k0_pay3 x0) (k0_pay4 x0) k0_pay5 xs0) x0 := by
  unfold out0_B_1
  rw [View.read_writes_eq_canon _ _ _ (cover0_B_1 c i a2 h2 a3 h3 a4 h4 hc x0 xs0)]
  unfold kernelRun0_B
  dsimp only
  sl_unfold_words
  rw [View.canon_unit_zero hz3]
  simp only [View.readAt_eq_ld, h2.read_unread, h4.read_unread, View.ld_unit_zero (S := S64x128x64) hz3, View.ld_unit_zero (S := S64x64) hz2]

/-- … and the carried array becomes the filled block's last time step. -/
theorem sout_B (hc : ¬cond0_0 i) (x0 : Vec F S64x128x64 .f32) (xs0 : Vec F S64x64 .f32) :
    sout0_B_0 c i a2 h2 a3 h3 a4 h4 hc x0 xs0 = k0_pay7 pos (k0_pay3 x0) (k0_pay4 x0) k0_pay5 xs0 := by
  unfold sout0_B_0
  rw [View.read_writes_eq_canon _ _ _ (scover0_B_0 c i a2 h2 a3 h3 a4 h4 hc x0 xs0)]
  unfold kernelRun0_B
  dsimp only
  sl_unfold_words
  rw [View.canon_unit_zero hz2]
  simp only [View.readAt_eq_ld, h2.read_unread, h4.read_unread, View.ld_unit_zero (S := S64x128x64) hz3, View.ld_unit_zero (S := S64x64) hz2]

/-- The first block of a row of blocks: the same with the carried array reset to the zero array first. -/
theorem out_A (hc : cond0_0 i) (x0 : Vec F S64x128x64 .f32) :
    out0_A_1 c i a2 h2 a3 h3 a4 h4 hc x0 = k0_pay1 (k0_pay8 pos (k0_pay3 x0) (k0_pay4 x0) k0_pay5 k0_pay2) x0 := by
  unfold out0_A_1
  rw [View.read_writes_eq_canon _ _ _ (cover0_A_1 c i a2 h2 a3 h3 a4 h4 hc x0)]
  unfold kernelRun0_A
  dsimp only
  sl_unfold_words
  rw [View.canon_unit_zero hz3]
  simp only [View.readAt_eq_ld, h2.read_unread, View.ld_unit_zero (S := S64x128x64) hz3, View.readCov_unit_zero (S := S64x64) _ hz2]

theorem sout_A (hc : cond0_0 i) (x0 : Vec F S64x128x64 .f32) :
    sout0_A_0 c i a2 h2 a3 h3 a4 h4 hc x0 = k0_pay7 pos (k0_pay3 x0) (k0_pay4 x0) k0_pay5 k0_pay2 := by
  unfold sout0_A_0
  rw [View.read_writes_eq_canon _ _ _ (scover0_A_0 c i a2 h2 a3 h3 a4 h4 hc x0)]
  unfold kernelRun0_A
  dsimp only
  sl_unfold_words
  rw [View.canon_cons_unit_zero (S := S64x64) hz2, View.readCov_unit_zero (S := S64x64) _ hz2]
  simp only [View.readAt_eq_ld, h2.read_unread, View.ld_unit_zero (S := S64x128x64) hz3]

end Cert.KernelIdeal.Pieces
end
-- ==== Proof.LibForwardFill.lean ====
/-
  Forward fill of a sequence, as pure mathematics over any type with a zero.

  `ff x t` is the entry of `x` at the last position at or before `t` whose entry is not zero, and zero when there
  is none.  Three facts about it are proved here.

  * Doubling scan.  `win x n p` is the same search cut to the `n` positions ending at `p`.  A window of `a + b`
    positions is the window of `a` positions, or when that holds only zeros the window of `b` positions ending
    `a` places earlier (`win_add`); a window longer than `p` is the whole forward fill (`win_eq_ff`).
  * Blocks.  The forward fill at position `a + p` is the forward fill of the block starting at `a`, read at `p`,
    or when that is zero the forward fill just before the block (`ff_block`).
  * Index form.  `lv x t` is the last nonzero position as an integer, `-1` when there is none; it is a running
    maximum of the per-position numbers "`-1` at a zero, the position elsewhere" (`lv_succ_max`), and the forward fill is the entry at
    that position when it is not negative, the entry at `t` itself otherwise (`ff_eq_lv`).
-/
import Mathlib

namespace Fill

variable {α : Type*} [Zero α] [DecidableEq α]

/-- The entry at the last nonzero position at or before `t`, zero when every entry up to `t` is zero. -/
def ff (x : ℕ → α) : ℕ → α
  | 0 => x 0
  | t + 1 => if x (t + 1) ≠ 0 then x (t + 1) else ff x t

/-- The same search over the `n` positions ending at `p` (fewer when `p + 1 < n`). -/
def win (x : ℕ → α) : ℕ → ℕ → α
  | 0, _ => 0
  | n + 1, p => if x p ≠ 0 then x p else (match p with | 0 => 0 | q + 1 => win x n q)

theorem win_zero (x : ℕ → α) (p : ℕ) : win x 0 p = 0 := rfl

theorem win_succ_zero (x : ℕ → α) (n : ℕ) : win x (n + 1) 0 = x 0 := by
  unfold win
  by_cases h : x 0 = 0 <;> simp [h]

theorem win_succ_succ (x : ℕ → α) (n q : ℕ) :
    win x (n + 1) (q + 1) = if x (q + 1) ≠ 0 then x (q + 1) else win x n q := by
  conv_lhs => unfold win

/-- One entry is the window of one position. -/
theorem win_one (x : ℕ → α) (p : ℕ) : win x 1 p = x p := by
  cases p with
  | zero => exact win_succ_zero x 0
  | succ q => rw [win_succ_succ, win_zero]; by_cases h : x (q + 1) = 0 <;> simp [h]

/-- A window of `a + b` positions: the nearest `a` positions, and when they hold only zeros the `b` positions
    before them (none when `p < a`). -/
theorem win_add (x : ℕ → α) (a b : ℕ) : ∀ p : ℕ,
    win x (a + b) p = if win x a p ≠ 0 then win x a p else (if a ≤ p then win x b (p - a) else 0) := by
  induction a with
  | zero => intro p; simp [win_zero]
  | succ a ih =>
    intro p
    have e : a + 1 + b = (a + b) + 1 := by omega
    rw [e]
    cases p with
    | zero =>
      rw [win_succ_zero, win_succ_zero]
      by_cases h : x 0 = 0 <;> simp [h]
    | succ q =>
      rw [win_succ_succ, win_succ_succ, ih q]
      by_cases h : x (q + 1) = 0
      · simp only [h, ne_eq, not_true_eq_false, if_false, Nat.add_le_add_iff_right, Nat.add_sub_add_right]
      · simp [h]

/-- A window reaching back to position `0` is the whole forward fill. -/
theorem win_eq_ff (x : ℕ → α) : ∀ (p n : ℕ), p < n → win x n p = ff x p := by
  intro p
  induction p with
  | zero =>
    intro n hn
    obtain ⟨k, rfl⟩ : ∃ k, n = k + 1 := ⟨n - 1, by omega⟩
    rw [win_succ_zero]; rfl
  | succ q ih =>
    intro n hn
    obtain ⟨k, rfl⟩ : ∃ k, n = k + 1 := ⟨n - 1, by omega⟩
    rw [win_succ_succ, ih k (by omega)]; rfl

/-- The forward fill inside a block starting at `a`, and what is carried into the block. -/
theorem ff_block (x : ℕ → α) (a : ℕ) : ∀ p : ℕ,
    ff x (a + p) = if ff (fun q => x (a + q)) p ≠ 0 then ff (fun q => x (a + q)) p
      else (if a = 0 then 0 else ff x (a - 1)) := by
  intro p
  induction p with
  | zero =>
    cases a with
    | zero => simp only [ff, Nat.add_zero]; by_cases h : x 0 = 0 <;> simp [h]
    | succ a' => simp only [ff, Nat.add_zero, Nat.add_sub_cancel]; simp
  | succ p ih =>
    have e : a + (p + 1) = (a + p) + 1 := by omega
    rw [e]
    simp only [ff]
    rw [ih]
    by_cases h : x (a + p + 1) = 0
    · have h' : x (a + (p + 1)) = 0 := h
      simp [h, h']
    · have h' : ¬ x (a + (p + 1)) = 0 := h
      simp [h, h']
      rfl

/-- The last nonzero position at or before `t`, `-1` when there is none. -/
def lv (x : ℕ → α) : ℕ → ℤ
  | 0 => if x 0 = 0 then -1 else 0
  | t + 1 => if x (t + 1) = 0 then lv x t else ((t + 1 : ℕ) : ℤ)

/-- The number a position contributes to the running maximum: `-1` at a zero, the position elsewhere. -/
def vi (x : ℕ → α) (t : ℕ) : ℤ := if x t = 0 then -1 else (t : ℤ)

theorem lv_bounds (x : ℕ → α) : ∀ t : ℕ, -1 ≤ lv x t ∧ lv x t ≤ t := by
  intro t
  induction t with
  | zero => unfold lv; by_cases h : x 0 = 0 <;> simp [h]
  | succ t ih =>
    unfold lv
    by_cases h : x (t + 1) = 0
    · simp only [h, if_true]; constructor
      · exact ih.1
      · have := ih.2; push_cast; omega
    · simp only [h, if_false]; constructor <;> omega

theorem lv_zero (x : ℕ → α) : lv x 0 = vi x 0 := by
  unfold lv vi; simp

theorem lv_succ_max (x : ℕ → α) (t : ℕ) : lv x (t + 1) = max (lv x t) (vi x (t + 1)) := by
  have hb := lv_bounds x t
  conv_lhs => unfold lv
  unfold vi
  by_cases h : x (t + 1) = 0
  · simp only [h, if_true]; rw [max_eq_left hb.1]
  · simp only [h, if_false]; rw [max_eq_right]; push_cast; omega

/-- The forward fill is the entry at the last nonzero position, and the entry at `t` itself (a zero) when there is none. -/
theorem ff_eq_lv (x : ℕ → α) : ∀ t : ℕ, ff x t = if 0 ≤ lv x t then x (lv x t).toNat else x t := by
  intro t
  induction t with
  | zero =>
    unfold ff lv
    by_cases h : x 0 = 0 <;> simp [h]
  | succ t ih =>
    have hb := lv_bounds x t
    conv_lhs => unfold ff
    conv_rhs => unfold lv
    by_cases h : x (t + 1) = 0
    · simp only [h, ne_eq, not_true_eq_false, if_false, if_true]
      rw [ih]
      by_cases h0 : 0 ≤ lv x t
      · simp [h0]
      · simp only [h0, if_false]
        -- every entry up to `t` is zero, so the entry at `t` is
        have : lv x t = -1 := by omega
        have hz : x t = 0 := by
          cases t with
          | zero => unfold lv at this; by_contra hx; simp [hx] at this
          | succ s =>
            unfold lv at this
            by_contra hx
            simp only [hx, if_false] at this
            omega
        exact hz
    · simp only [h, ne_eq, not_false_eq_true, if_true, if_false]
      have : (0 : ℤ) ≤ ((t + 1 : ℕ) : ℤ) := by positivity
      simp

end Fill
-- ==== Proof.BlockScanRound.lean ====
/-
  One doubling round of the in-block scan, and the scan's invariant.

  With time on the last axis, a round by s replaces every zero entry by the entry s places earlier (zero for the first
  s places).  If every position holds the last nonzero entry among the s positions ending at it, then after the round
  every position holds the last nonzero entry among the 2·s positions ending at it.  Starting from the block itself
  (windows of one position) the rounds by 1, 2 and 4 give windows of eight positions.
-/
import proofs.«107866_j72773925864084_2_alg».proof.Proof.Gen.KernelIdeal.Skeleton
import proofs.«107866_j72773925864084_2_alg».proof.Proof.LibForwardFill
import Idealize.ShloMosaic.Lib.ValueIdx
import Idealize.ShloMosaic.Lib.ValueLayout
import Idealize.ShloMosaic.Lib.KernelVsHost
import Idealize.ShloMosaic.PureOps.Ideal.Laws

set_option synthInstance.maxSize 4096

noncomputable section

namespace Cert.KernelIdeal.Block

open Cert.KernelIdeal Cert.KernelIdeal.Gen Idealize.ShloMosaic Idealize.ShloMosaic.ValueIdx Idealize.SL.Sem

/-- The position along the last axis of a [64, 64, 128] array, as a 32-bit word. -/
abbrev pos : IVec S64x64x128 32 := iota .tc S64x64x128 32 [2] iota_S64x64x128_d2_w32

/-- The zero array of the scan's shape. -/
abbrev zeros : FVec Ideal S64x64x128 .f32 := broadcast S64x64x128 (Scalar.ofBits (F := Ideal) .f32 0x00000000#32)

/-- One doubling round of the scan by the amount sw: each entry that is zero takes the entry sw places
    earlier along the last axis, or zero when there is none. -/
def round (sw : BitVec 32) (v : FVec Ideal S64x64x128 .f32) : FVec Ideal S64x64x128 .f32 :=
  select (cmpf .one v zeros) v
    (select (cmpi .sge pos (broadcast S64x64x128 sw)) (dynamicRotate 2 sw none v rotates_S64x64x128_d2) zeros)

theorem pos_apply (b f : Fin 64) (p : Fin 128) : pos (ix3 b f p) = BitVec.ofNat 32 p.val := by
  show BitVec.ofNat 32 (0 * 128 + p.val) = BitVec.ofNat 32 p.val
  rw [Nat.zero_mul, Nat.zero_add]

theorem zeros_apply (i : S64x64x128.Idx) : zeros i = 0 := Ideal.ofBits_zero_f32

theorem sle_small (sw : BitVec 32) (p : ℕ) (hs : sw.toNat < 128) (hp : p < 128) :
    sw.sle (BitVec.ofNat 32 p) = decide (sw.toNat ≤ p) := by
  have h1 : (BitVec.ofNat 32 p).toNat = p := by
    rw [BitVec.toNat_ofNat]; exact Nat.mod_eq_of_lt (by omega)
  have h2 : (BitVec.ofNat 32 p).toInt = (p : ℤ) := by
    rw [BitVec.toInt_eq_toNat_of_lt (by rw [h1]; omega), h1]
  have h3 : sw.toInt = (sw.toNat : ℤ) := BitVec.toInt_eq_toNat_of_lt (by omega)
  rw [BitVec.sle, h2, h3]
  simp

/-- A round read at (b, f, p): the entry itself when it is not zero, otherwise the entry s places earlier, zero when
    p is among the first s places. -/
theorem round_apply (sw : BitVec 32) (s : ℕ) (hsw : sw.toNat = s) (hs : s < 128) (v : FVec Ideal S64x64x128 .f32)
    (b f : Fin 64) (p : Fin 128) :
    round sw v (ix3 b f p)
      = if v (ix3 b f p) ≠ 0 then v (ix3 b f p)
        else (if h : s ≤ p.val then v (ix3 b f ⟨p.val - s, by have := p.isLt; omega⟩) else 0) := by
  have hp : p.val < 128 := p.isLt
  unfold round
  rw [select_apply, cmpf_apply, zeros_apply]
  show Scalar.select (Ideal.cmp .one (v (ix3 b f p)) 0) _ _ = _
  by_cases hv : v (ix3 b f p) = 0
  · have hc : Ideal.cmp .one (v (ix3 b f p)) 0 = 0#1 := by
      unfold Ideal.cmp; simp [hv]
    rw [hc, select_zero, if_neg (not_not.2 hv), select_apply]
    show Scalar.select (IntOp.cmpi .sge (pos (ix3 b f p)) sw) _ _ = _
    rw [pos_apply]
    show Scalar.select (BitVec.ofBool (sw.sle (BitVec.ofNat 32 p.val))) _ _ = _
    rw [sle_small sw p.val (by omega) hp, hsw]
    by_cases hsp : s ≤ p.val
    · rw [dif_pos hsp, decide_eq_true hsp]
      show Scalar.select 1#1 _ _ = _
      rw [select_one]
      refine dynamicRotate_apply (2 : Fin 3) sw v _ _ _ fun c => ?_
      match c with
      | ⟨0, _⟩ => rfl
      | ⟨1, _⟩ => rfl
      | ⟨2, _⟩ =>
        show p.val - s = (p.val + 128 - sw.toNat % 128) % 128
        rw [hsw, Nat.mod_eq_of_lt hs]
        omega
    · rw [dif_neg hsp, decide_eq_false hsp]
      show Scalar.select 0#1 _ _ = _
      rw [select_zero, zeros_apply]
  · have hc : Ideal.cmp .one (v (ix3 b f p)) 0 = 1#1 := by
      unfold Ideal.cmp; simp [hv]
    rw [hc, select_one, if_pos hv]

/-- One feature of one batch row of a block over its 128 time steps, zero beyond. -/
def bseries (x : Vec Ideal S64x128x64 .f32) (b f : Fin 64) : ℕ → EReal :=
  fun q => if h : q < 128 then x (ix3 b ⟨q, h⟩ f) else 0

theorem bseries_of_lt (x : Vec Ideal S64x128x64 .f32) (b f : Fin 64) (q : ℕ) (h : q < 128) :
    bseries x b f q = x (ix3 b ⟨q, h⟩ f) := dif_pos h

/-- The array holds, at every (b, f, p), the last nonzero among the n entries of the block's sequence ending at p
    (zero when they are all zero). -/
def Inv (x : Vec Ideal S64x128x64 .f32) (n : ℕ) (v : FVec Ideal S64x64x128 .f32) : Prop :=
  ∀ (b f : Fin 64) (p : Fin 128), v (ix3 b f p) = Fill.win (bseries x b f) n p.val

/-- A round by s doubles the window from s to 2 s. -/
theorem Inv.round {x : Vec Ideal S64x128x64 .f32} {v : FVec Ideal S64x64x128 .f32} (s : ℕ) (hv : Inv x s v)
    (sw : BitVec 32) (hsw : sw.toNat = s) (hs : s < 128) : Inv x (s + s) (round sw v) := by
  intro b f p
  rw [round_apply sw s hsw hs v b f p, Fill.win_add, hv b f p]
  by_cases h0 : Fill.win (bseries x b f) s p.val ≠ 0
  · rw [if_pos h0, if_pos h0]
  · rw [if_neg h0, if_neg h0]
    by_cases hsp : s ≤ p.val
    · rw [dif_pos hsp, if_pos hsp]; exact hv b f _
    · rw [dif_neg hsp, if_neg hsp]

/-- The block with time moved to the last axis holds the windows of length one. -/
theorem Inv.start (x : Vec Ideal S64x128x64 .f32) :
    Inv x 1 (transpose S64x64x128 [0, 2, 1] x transposes_S64x128x64_p0_2_1_S64x64x128) := by
  intro b f p
  rw [Fill.win_one, bseries_of_lt x b f p.val p.isLt]
  exact transpose_ix3_021_apply x _ b f p

theorem pay3_eq (x : Vec Ideal S64x128x64 .f32) :
    k0_pay3 (F := Ideal) x
      = round 4#32 (round 2#32 (round 1#32 (transpose S64x64x128 [0, 2, 1] x transposes_S64x128x64_p0_2_1_S64x64x128))) := rfl

theorem pay3_inv (x : Vec Ideal S64x128x64 .f32) : Inv x 8 (k0_pay3 (F := Ideal) x) := by
  rw [pay3_eq]
  exact (((Inv.start x).round 1 1#32 rfl (by decide)).round 2 2#32 rfl (by decide)).round 4 4#32 rfl (by decide)

end Cert.KernelIdeal.Block
end
-- ==== Proof.BlockScan.lean ====
/-
  The kernel body's arithmetic on one block, entry by entry.

  After the seven rounds (by 1, 2, …, 64) every position of the block holds the forward fill of the block's own
  sequence; a position still zero then takes the carried value of its batch row and feature.  The new carried array is
  that filled block at its last time step; the output block is the filled block, time back on the middle axis, beside
  the indicators of the block's zero entries.
-/
import proofs.«107866_j72773925864084_2_alg».proof.Proof.Gen.KernelIdeal.Skeleton
import proofs.«107866_j72773925864084_2_alg».proof.Proof.LibForwardFill
import proofs.«107866_j72773925864084_2_alg».proof.Proof.BlockScanRound
import Idealize.ShloMosaic.Lib.ValueIdx
import Idealize.ShloMosaic.Lib.ValueLayout
import Idealize.ShloMosaic.Lib.KernelVsHost
import Idealize.ShloMosaic.PureOps.Ideal.Laws

set_option synthInstance.maxSize 4096

noncomputable section

namespace Cert.KernelIdeal.Block

open Cert.KernelIdeal Cert.KernelIdeal.Gen Idealize.ShloMosaic Idealize.ShloMosaic.ValueIdx Idealize.SL.Sem

/-- Keep the entries that are not zero, take the other array's elsewhere. -/
theorem selne_apply {s : Shape} (v w : FVec Ideal s .f32) (i : s.Idx) :
    select (cmpf .one v (broadcast s (Scalar.ofBits (F := Ideal) .f32 0x00000000#32))) v w i
      = if v i ≠ 0 then v i else w i := by
  rw [select_apply, cmpf_apply, broadcast_apply]
  show Scalar.select (Ideal.cmp .one (v i) (Ideal.ofBits .f32 0x00000000#32)) _ _ = _
  rw [Ideal.ofBits_zero_f32]
  by_cases hv : v i = 0
  · have hc : Ideal.cmp .one (v i) 0 = 0#1 := by unfold Ideal.cmp; simp [hv]
    rw [hc, select_zero, if_neg (not_not.2 hv)]
  · have hc : Ideal.cmp .one (v i) 0 = 1#1 := by unfold Ideal.cmp; simp [hv]
    rw [hc, select_one, if_pos hv]

/-- The carried array repeated along the time axis. -/
def cvb (cv : Vec Ideal S64x64 .f32) : FVec Ideal S64x64x128 .f32 :=
  broadcastTo S64x64x128
    (shapeCast S64x64x1 (shapeCast S64x64x1 cv shapeCasts_S64x64_S64x64x1) shapeCasts_S64x64x1_S64x64x1)
    broadcasts_S64x64x1_S64x64x128

theorem cvb_apply (cv : Vec Ideal S64x64 .f32) (b f : Fin 64) (p : Fin 128) : cvb cv (ix3 b f p) = cv (ix2 b f) := by
  unfold cvb
  refine (broadcastTo_apply _ _ (ix3 b f p) (ix3 b f (0 : Fin 1)) fun a => ?_).trans ?_
  · match a with
    | ⟨0, _⟩ => rfl
    | ⟨1, _⟩ => rfl
    | ⟨2, _⟩ => rfl
  refine (shapeCast_apply _ _ (ix3 b f (0 : Fin 1)) (ix3 b f (0 : Fin 1)) rfl).trans ?_
  refine shapeCast_apply _ _ (ix3 b f (0 : Fin 1)) (ix2 b f) ?_
  rw [Shape.rowMajor_val_three, Shape.rowMajor_val_two]
  show b.val * 64 + f.val = (b.val * 64 + f.val) * 1 + 0
  omega

/-- The scanned array after all seven rounds. -/
def scanned (x : Vec Ideal S64x128x64 .f32) : FVec Ideal S64x64x128 .f32 :=
  round 64#32 (round 32#32 (round 16#32 (round 8#32 (k0_pay3 (F := Ideal) x))))

theorem scanned_inv (x : Vec Ideal S64x128x64 .f32) : Inv x 128 (scanned x) :=
  ((((pay3_inv x).round 8 8#32 rfl (by decide)).round 16 16#32 rfl (by decide)).round 32 32#32 rfl (by decide)).round
    64 64#32 rfl (by decide)

theorem scanned_apply (x : Vec Ideal S64x128x64 .f32) (b f : Fin 64) (p : Fin 128) :
    scanned x (ix3 b f p) = Fill.ff (bseries x b f) p.val :=
  (scanned_inv x b f p).trans (Fill.win_eq_ff _ _ _ p.isLt)

theorem pay6_eq (x : Vec Ideal S64x128x64 .f32) (cv : Vec Ideal S64x64 .f32) :
    k0_pay6 (F := Ideal) pos (k0_pay3 x) (k0_pay4 x) k0_pay5 cv
      = select (cmpf .one (scanned x) zeros) (scanned x) (cvb cv) := rfl

/-- The filled value of a block at (b, f, p) given the carried array cv. -/
def filled (x : Vec Ideal S64x128x64 .f32) (cv : Vec Ideal S64x64 .f32) (b f : Fin 64) (p : Fin 128) : EReal :=
  if Fill.ff (bseries x b f) p.val ≠ 0 then Fill.ff (bseries x b f) p.val else cv (ix2 b f)

theorem scan_apply (x : Vec Ideal S64x128x64 .f32) (cv : Vec Ideal S64x64 .f32) (b f : Fin 64) (p : Fin 128) :
    k0_pay6 (F := Ideal) pos (k0_pay3 x) (k0_pay4 x) k0_pay5 cv (ix3 b f p) = filled x cv b f p := by
  rw [pay6_eq]
  refine (selne_apply (scanned x) (cvb cv) (ix3 b f p)).trans ?_
  rw [scanned_apply, cvb_apply]
  rfl

theorem carry_apply (x : Vec Ideal S64x128x64 .f32) (cv : Vec Ideal S64x64 .f32) (b f : Fin 64) :
    k0_pay7 (F := Ideal) pos (k0_pay3 x) (k0_pay4 x) k0_pay5 cv (ix2 b f) = filled x cv b f ⟨127, by decide⟩ := by
  unfold k0_pay7
  refine (shapeCast_apply _ _ (ix2 b f) (ix2 b f) rfl).trans ?_
  refine (shapeCast_apply _ _ (ix2 b f) (ix3 b f (0 : Fin 1)) ?_).trans ?_
  · rw [Shape.rowMajor_val_three, Shape.rowMajor_val_two]
    show (b.val * 64 + f.val) * 1 + 0 = b.val * 64 + f.val
    omega
  refine (extractStridedSlice_apply _ _ _ (ix3 b f (0 : Fin 1)) (ix3 b f (⟨127, by decide⟩ : Fin 128)) fun a => ?_).trans ?_
  · match a with
    | ⟨0, _⟩ => exact (Nat.zero_add _).symm
    | ⟨1, _⟩ => exact (Nat.zero_add _).symm
    | ⟨2, _⟩ => rfl
  exact scan_apply x cv b f _

theorem back_apply (x : Vec Ideal S64x128x64 .f32) (cv : Vec Ideal S64x64 .f32) (b : Fin 64) (p : Fin 128) (f : Fin 64) :
    k0_pay8 (F := Ideal) pos (k0_pay3 x) (k0_pay4 x) k0_pay5 cv (ix3 b p f) = filled x cv b f p := by
  unfold k0_pay8
  exact (transpose_ix3_021_apply _ _ b p f).trans (scan_apply x cv b f p)

/-- The indicator of a zero entry, as the kernel computes it: the comparison's bit widened and read as a number. -/
theorem ind_apply (x' : Vec Ideal S64x128x64 .f32) (i : S64x128x64.Idx) :
    (sitofp .f32 (extui 32 (cmpf .oeq x' (broadcast S64x128x64 (Scalar.ofBits (F := Ideal) .f32 0x00000000#32))) natLt_1_32)
        : FVec Ideal S64x128x64 .f32) i
      = if x' i = 0 then 1 else 0 := by
  rw [sitofp_apply, extui_apply, cmpf_apply, broadcast_apply]
  show (((BitVec.setWidth 32 (Ideal.cmp .oeq (x' i) (Ideal.ofBits .f32 0x00000000#32))).toInt : ℝ) : EReal) = _
  rw [Ideal.ofBits_zero_f32]
  by_cases hv : x' i = 0
  · have hc : Ideal.cmp .oeq (x' i) 0 = 1#1 := by unfold Ideal.cmp; simp [hv]
    rw [hc, if_pos hv]
    have : (BitVec.setWidth 32 1#1).toInt = 1 := by decide
    rw [this]; simp
  · have hc : Ideal.cmp .oeq (x' i) 0 = 0#1 := by unfold Ideal.cmp; simp [hv]
    rw [hc, if_neg hv]
    have : (BitVec.setWidth 32 0#1).toInt = 0 := by decide
    rw [this]; simp

theorem out_apply (x x' : Vec Ideal S64x128x64 .f32) (cv : Vec Ideal S64x64 .f32) (b : Fin 64) (p : Fin 128) (c : Fin 128) :
    k0_pay1 (F := Ideal) (k0_pay8 pos (k0_pay3 x) (k0_pay4 x) k0_pay5 cv) x' (ix3 b p c)
      = if h : c.val < 64 then filled x cv b ⟨c.val, h⟩ p
        else (if x' (ix3 b p ⟨c.val - 64, by have := c.isLt; omega⟩) = 0 then 1 else 0) := by
  unfold k0_pay1
  by_cases h : c.val < 64
  · rw [dif_pos h]
    refine (concatenate_pair_apply_left (t := S64x128x128) (s₁ := S64x128x64) (s₂ := S64x128x64) (2 : Fin 3) _ _ _ (ix3 b p c) rfl (ix3 b p (⟨c.val, h⟩ : Fin 64)) fun a => ?_).trans ?_
    · match a with
      | ⟨0, _⟩ => rfl
      | ⟨1, _⟩ => rfl
      | ⟨2, _⟩ => rfl
    exact back_apply x cv b p ⟨c.val, h⟩
  · rw [dif_neg h]
    have hc : c.val - 64 < 64 := by have := c.isLt; omega
    refine (concatenate_pair_apply_right (t := S64x128x128) (s₁ := S64x128x64) (s₂ := S64x128x64) (2 : Fin 3) _ _ _ (ix3 b p c) rfl rfl (ix3 b p (⟨c.val - 64, hc⟩ : Fin 64))
      (fun a ha => ?_) ?_).trans ?_
    · match a, ha with
      | ⟨0, _⟩, _ => rfl
      | ⟨1, _⟩, _ => rfl
      | ⟨2, _⟩, ha => exact absurd rfl ha
    · show c.val - 64 + 64 = c.val
      omega
    exact ind_apply x' _

theorem reset_apply (b f : Fin 64) : k0_pay2 (F := Ideal) (ix2 b f) = 0 := by
  unfold k0_pay2
  refine (shapeCast_apply _ _ (ix2 b f) (ix2 b f) rfl).trans ?_
  exact Ideal.ofBits_zero_f32

end Cert.KernelIdeal.Block
end
-- ==== Proof.Spec.lean ====
/-
  What both programs compute, as one function of the input array.

  The input is an array x[b, t, f] of extended reals, 128 batch rows by 2048 time steps by 64 features.  An entry
  equal to zero stands for "missing".  The result has 128 columns per (b, t):

  * columns 0..63, the imputed values: column f holds the entry of x[b, ·, f] at the last time step at or before t whose
    entry is not zero, and zero when there is none (forward fill along the time axis);
  * columns 64..127, the indicators: column 64 + f holds 1 when x[b, t, f] is zero and 0 otherwise.
-/
import Idealize.ShloMosaic.PureOps.Ideal
import Idealize.ShloMosaic.Lib.ValueIdx
import proofs.«107866_j72773925864084_2_alg».proof.Proof.LibForwardFill

noncomputable section

namespace Cert.FillSpec

open Idealize.ShloMosaic Idealize.ShloMosaic.ValueIdx

/-- The input's shape and the result's. -/
abbrev SX : Shape := ⟨3, ![128, 2048, 64]⟩
abbrev SY : Shape := ⟨3, ![128, 2048, 128]⟩

/-- Feature `f` of batch row `b` as a sequence over the time steps, zero past the last one. -/
def series (x : FVec Ideal SX .f32) (b : Fin 128) (f : Fin 64) : ℕ → EReal :=
  fun q => if h : q < 2048 then x (ix3 b ⟨q, h⟩ f) else 0

theorem series_of_lt (x : FVec Ideal SX .f32) (b : Fin 128) (f : Fin 64) (q : ℕ) (h : q < 2048) :
    series x b f q = x (ix3 b ⟨q, h⟩ f) := dif_pos h

/-- The imputed value at `(b, t, f)`: the forward fill of the feature's sequence, read at `t`. -/
def imputed (x : FVec Ideal SX .f32) (b : Fin 128) (t : Fin 2048) (f : Fin 64) : EReal :=
  Fill.ff (series x b f) t.val

/-- The indicator at `(b, t, f)`: one at a zero entry, zero elsewhere. -/
def indicator (x : FVec Ideal SX .f32) (b : Fin 128) (t : Fin 2048) (f : Fin 64) : EReal :=
  if x (ix3 b t f) = 0 then 1 else 0

/-- The result: the imputed values in columns 0..63, the indicators in columns 64..127. -/
def G (x : FVec Ideal SX .f32) : FVec Ideal SY .f32 := fun i =>
  if h : (i 2).val < 64 then imputed x (i 0) (i 1) ⟨(i 2).val, h⟩
  else indicator x (i 0) (i 1) ⟨(i 2).val - 64, by have h2 : (i 2).val < 128 := (i 2).isLt; omega⟩

theorem G_left (x : FVec Ideal SX .f32) (b : Fin 128) (t : Fin 2048) (c : Fin 128) (h : c.val < 64) :
    G x (ix3 b t c) = imputed x b t ⟨c.val, h⟩ := dif_pos h

theorem G_right (x : FVec Ideal SX .f32) (b : Fin 128) (t : Fin 2048) (c : Fin 128) (h : ¬ c.val < 64) :
    G x (ix3 b t c) = indicator x b t ⟨c.val - 64, by have := c.isLt; omega⟩ := dif_neg h

end Cert.FillSpec

end
-- ==== Proof.GridFacts.lean ====
/-
  Where the kernel's blocks sit in the arrays.

  The grid has 2 x 16 points; point number n works on batch rows 64·(n / 16) … + 63 and time steps 128·(n % 16) … + 127.
  Its input block is that box of the input array with all 64 features, its output block the same box of the result with
  all 128 columns.  Stated entry by entry, and: every entry of the result lies in the output block of exactly the point
  its batch row and time step name.
-/
import proofs.«107866_j72773925864084_2_alg».proof.Proof.Gen.KernelIdeal.Value
import proofs.«107866_j72773925864084_2_alg».proof.Proof.Spec
import Idealize.ShloMosaic.Lib.Pipeline.Value
import Idealize.ShloMosaic.Lib.ValueIdx

noncomputable section

namespace Cert.KernelIdeal.GridFacts

open Cert.KernelIdeal Cert.KernelIdeal.Gen Cert.FillSpec Idealize.ShloMosaic Idealize.ShloMosaic.ValueIdx Idealize.ShloMosaic.TcCoe Idealize.SL.Sem
open Idealize.ShloMosaic.Pipeline (Dat)

/-- Batch row `b` of the blocks in block row `B`, as a batch row of the array. -/
def row (B : ℕ) (b : Fin 64) : Fin 128 := ⟨(64 * B + b.val) % 128, Nat.mod_lt _ (by decide)⟩
/-- Time step `p` of the blocks in block column `T`, as a time step of the array. -/
def time (T : ℕ) (p : Fin 128) : Fin 2048 := ⟨(128 * T + p.val) % 2048, Nat.mod_lt _ (by decide)⟩

theorem row_val (B : ℕ) (hB : B < 2) (b : Fin 64) : (row B b).val = 64 * B + b.val := by
  have := b.isLt; show (64 * B + b.val) % 128 = _; omega
theorem time_val (T : ℕ) (hT : T < 16) (p : Fin 128) : (time T p).val = 128 * T + p.val := by
  have := p.isLt; show (128 * T + p.val) % 2048 = _; omega

variable (m : (ℓ : Loc nD τ sig) → Buf (Elt Ideal) ℓ)

theorem hN : cfg0.N = 32 := N_0

/-- The block index of the input window at a point, decided over the grid. -/
theorem idx_in : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)

/-- The block index of the output window at a point, decided over the grid. -/
theorem idx_out : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, _)

/-- The input array as the region finds it. -/
abbrev Xc (c : Dev nD) : FVec Ideal SX .f32 := V m c main_arg0

/-- The input block of a point, entry by entry. -/
theorem iblk_apply (c : Dev nD) (t : Fin cfg0.N) (b : Fin 64) (q : Fin 128) (f : Fin 64) :
    (iblk m c 0 t : Vec Ideal S64x128x64 .f32) (ix3 b q f) = Xc m c (ix3 (row (t.val / 16) b) (time (t.val % 16) q) f) := by
  obtain ⟨e0, e1, e2⟩ := idx_in t
  have ht : t.val < 32 := lt_of_lt_of_eq t.isLt hN
  have hb := b.isLt; have hq := q.isLt; have hf := f.isLt
  unfold iblk
  rw [View.read_apply]
  show V m c main_arg0 _ = V m c main_arg0 _
  congr 1
  funext a
  apply Fin.ext
  match a with
  | ⟨0, _⟩ => show win0_0.index t (0 : Fin 3) * 64 + 1 * b.val = (64 * (t.val / 16) + b.val) % 128; rw [e0]; omega
  | ⟨1, _⟩ => show win0_0.index t (1 : Fin 3) * 128 + 1 * q.val = (128 * (t.val % 16) + q.val) % 2048; rw [e1]; omega
  | ⟨2, _⟩ => show win0_0.index t (2 : Fin 3) * 64 + 1 * f.val = f.val; rw [e2]; omega

/-- Where an entry of a point's output block lands in the result. -/
theorem emb_out (t : Fin cfg0.N) (b : Fin 64) (p : Fin 128) (cc : Fin 128) :
    ((cfg0.win 1).blk t).view.emb (ix3 b p cc : S64x128x128.Idx) = (ix3 (row (t.val / 16) b) (time (t.val % 16) p) cc : S128x2048x128.Idx) := by
  obtain ⟨e0, e1, e2⟩ := idx_out t
  have ht : t.val < 32 := lt_of_lt_of_eq t.isLt hN
  have hb := b.isLt; have hp := p.isLt; have hc := cc.isLt
  funext a
  apply Fin.ext
  match a with
  | ⟨0, _⟩ => show win0_1.index t (0 : Fin 3) * 64 + 1 * b.val = (64 * (t.val / 16) + b.val) % 128; rw [e0]; omega
  | ⟨1, _⟩ => show win0_1.index t (1 : Fin 3) * 128 + 1 * p.val = (128 * (t.val % 16) + p.val) % 2048; rw [e1]; omega
  | ⟨2, _⟩ => show win0_1.index t (2 : Fin 3) * 128 + 1 * cc.val = cc.val; rw [e2]; omega

/-- An entry of the result is in a point's output block iff each coordinate is in the block's range on its axis. -/
theorem mem_blk (t : Fin cfg0.N) (i : S128x2048x128.Idx) :
    i ∈ ((cfg0.win 1).blk t).view.set ↔ ∀ a : Fin 3, win0_1.index t a * S64x128x128.size a ≤ (i a).val
      ∧ (i a).val < win0_1.index t a * S64x128x128.size a + S64x128x128.size a := by
  show i ∈ ((View.whole main_v0).slice (win0_1.rect t)).set ↔ _
  rw [View.set_slice_whole, Rect.mem_set_unit]
  exact Iff.rfl

/-- Every entry of the result lies in the output block of the point its batch row and time step name. -/
theorem cover (i : S128x2048x128.Idx) :
    ∃ t : Fin cfg0.N, (cfg0.win 1).flush t = true ∧ i ∈ ((cfg0.win 1).blk t).view.set := by
  have h0 : (i 0).val < 128 := (i 0).isLt
  have h1 : (i 1).val < 2048 := (i 1).isLt
  have h2 : (i 2).val < 128 := (i 2).isLt
  let t : Fin cfg0.N := ⟨16 * ((i 0).val / 64) + (i 1).val / 128, by rw [hN]; omega⟩
  have htv : t.val = 16 * ((i 0).val / 64) + (i 1).val / 128 := rfl
  obtain ⟨e0, e1, e2⟩ := idx_out t
  refine ⟨t, flush0_1 t, ?_⟩
  rw [mem_blk]
  intro a
  match a with
  | ⟨0, _⟩ => show win0_1.index t (0 : Fin 3) * 64 ≤ (i 0).val ∧ (i 0).val < win0_1.index t (0 : Fin 3) * 64 + 64; rw [e0, htv]; omega
  | ⟨1, _⟩ => show win0_1.index t (1 : Fin 3) * 128 ≤ (i 1).val ∧ (i 1).val < win0_1.index t (1 : Fin 3) * 128 + 128; rw [e1, htv]; omega
  | ⟨2, _⟩ => show win0_1.index t (2 : Fin 3) * 128 ≤ (i 2).val ∧ (i 2).val < win0_1.index t (2 : Fin 3) * 128 + 128; rw [e2]; omega

end Cert.KernelIdeal.GridFacts

end
-- ==== Proof.BlockFill.lean ====
/-
  One block of the kernel against the specification.

  A block holds 128 consecutive time steps of 64 batch rows.  Forward filling a whole time series, read inside a block,
  is forward filling the block, and where the block has only zeros so far, the filled value just before the block — which
  is what the kernel carries from block to block.  So, for a block whose entries are the array's at batch rows
  64·B … and time steps 128·T …, and a carried array that holds the filled values at time step 128·T − 1 (zero for the
  first block, T = 0): the body's output block is the specification's box, and the carried array it leaves holds the
  filled values at time step 128·T + 127.
-/
import proofs.«107866_j72773925864084_2_alg».proof.Proof.BlockScan
import proofs.«107866_j72773925864084_2_alg».proof.Proof.GridFacts

noncomputable section

namespace Cert.KernelIdeal.BlockFill

open Cert.KernelIdeal Cert.KernelIdeal.Gen Cert.KernelIdeal.Block Cert.KernelIdeal.GridFacts Cert.FillSpec
open Idealize.ShloMosaic Idealize.ShloMosaic.ValueIdx

/-- Forward filling up to a position looks at the entries up to that position only. -/
theorem ff_congr {α : Type} [Zero α] [DecidableEq α] (x y : ℕ → α) :
    ∀ p : ℕ, (∀ q, q ≤ p → x q = y q) → Fill.ff x p = Fill.ff y p
  | 0, h => h 0 le_rfl
  | p + 1, h => by
    show (if x (p + 1) ≠ 0 then x (p + 1) else Fill.ff x p) = (if y (p + 1) ≠ 0 then y (p + 1) else Fill.ff y p)
    rw [h (p + 1) le_rfl, ff_congr x y p (fun q hq => h q (Nat.le_succ_of_le hq))]

variable (X : FVec Ideal SX .f32) (x : Vec Ideal S64x128x64 .f32) (cv : Vec Ideal S64x64 .f32) (B T : ℕ) (hB : B < 2) (hT : T < 16)
  (hx : ∀ (b : Fin 64) (q : Fin 128) (f : Fin 64), x (ix3 b q f) = X (ix3 (row B b) (time T q) f))
  (hcv : ∀ (b f : Fin 64), cv (ix2 b f) = if T = 0 then 0 else Fill.ff (series X (row B b) f) (128 * T - 1))

include hT hx in
/-- The block's own series is the array's, shifted to the block's first time step. -/
theorem bseries_eq (b f : Fin 64) (q : ℕ) (hq : q < 128) :
    bseries x b f q = series X (row B b) f (128 * T + q) := by
  rw [series_of_lt X _ f (128 * T + q) (by omega)]
  unfold bseries
  rw [dif_pos hq]
  refine (hx b ⟨q, hq⟩ f).trans (congrArg X ?_)
  refine congrArg (fun u => ix3 (row B b) u f) (Fin.ext ?_)
  exact time_val T hT ⟨q, hq⟩

include hT hx hcv in
/-- The filled value of the block is the forward fill of the whole series. -/
theorem filled_eq (b f : Fin 64) (p : Fin 128) :
    filled x cv b f p = imputed X (row B b) (time T p) f := by
  have hp : p.val < 128 := p.isLt
  unfold filled imputed
  rw [time_val T hT p]
  have e : Fill.ff (bseries x b f) p.val = Fill.ff (fun q => series X (row B b) f (128 * T + q)) p.val :=
    ff_congr _ _ p.val (fun q hq => bseries_eq X x B T hT hx b f q (by omega))
  rw [e, Fill.ff_block (series X (row B b) f) (128 * T) p.val, hcv b f]
  by_cases hT0 : T = 0
  · subst hT0; simp
  · have h128 : ¬ 128 * T = 0 := by omega
    simp [hT0, h128]

include hT hx hcv in
/-- The body's output block is the specification's box. -/
theorem out_eq (b : Fin 64) (p : Fin 128) (cc : Fin 128) :
    k0_pay1 (F := Ideal) (k0_pay8 pos (k0_pay3 x) (k0_pay4 x) k0_pay5 cv) x (ix3 b p cc)
      = G X (ix3 (row B b) (time T p) cc) := by
  rw [out_apply x x cv b p cc]
  by_cases h : cc.val < 64
  · rw [dif_pos h, G_left X _ _ cc h]
    exact filled_eq X x cv B T hT hx hcv b ⟨cc.val, h⟩ p
  · rw [dif_neg h, G_right X _ _ cc h]
    unfold indicator
    rw [hx b p ⟨cc.val - 64, by have := cc.isLt; omega⟩]

include hT hx hcv in
/-- The carried array it leaves holds the filled values at the block's last time step. -/
theorem carry_eq (b f : Fin 64) :
    k0_pay7 (F := Ideal) pos (k0_pay3 x) (k0_pay4 x) k0_pay5 cv (ix2 b f)
      = Fill.ff (series X (row B b) f) (128 * T + 127) := by
  rw [carry_apply x cv b f, filled_eq X x cv B T hT hx hcv b f ⟨127, by decide⟩]
  unfold imputed
  rw [time_val T hT ⟨127, by decide⟩]

end Cert.KernelIdeal.BlockFill

end
-- ==== Proof.KernelValue.lean ====
/-
  The kernel's result array is the specification.

  Along a row of 16 blocks the kernel carries, for every batch row and feature, the filled value at the last time step
  it has seen; it resets the carried array at the first block of the row.  By induction on the grid point: after point n
  the carried array holds the filled values at time step 128·(n % 16) + 127 of batch rows 64·(n / 16) …, and the output
  block holds the specification's box.  Every entry of the result lies in exactly one output block, so the result array
  is the specification of the input array.
-/
import proofs.«107866_j72773925864084_2_alg».proof.Proof.Pieces
import proofs.«107866_j72773925864084_2_alg».proof.Proof.BlockFill

noncomputable section

namespace Cert.KernelIdeal.FillValue

open Cert.KernelIdeal Cert.KernelIdeal.Gen Cert.KernelIdeal.Block Cert.KernelIdeal.GridFacts Cert.KernelIdeal.BlockFill Cert.FillSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- What the carried array and the output block hold after point `n`. -/
def Inv (c : Dev nD) (n : ℕ) (h : n < cfg0.N) : Prop :=
  (∀ b f : Fin 64, (outsAt0 m c n h).2 (ix2 b f) = Fill.ff (series (Xc m c) (row (n / 16) b) f) (128 * (n % 16) + 127))
  ∧ (∀ (b : Fin 64) (p : Fin 128) (cc : Fin 128),
      (outsAt0 m c n h).1 (ix3 b p cc) = G (Xc m c) (ix3 (row (n / 16) b) (time (n % 16) p) cc))

/-- A point at the start of a row of blocks: the carried array is reset, nothing is taken from the point before. -/
theorem inv_A (c : Dev nD) (t : Fin cfg0.N) (h0 : t.val % 16 = 0) : Inv m c t.val t.isLt := by
  have ht : t.val < 32 := lt_of_lt_of_eq t.isLt hN
  have hcv : ∀ (b f : Fin 64), (k0_pay2 (F := Ideal)) (ix2 b f)
      = if t.val % 16 = 0 then 0 else Fill.ff (series (Xc m c) (row (t.val / 16) b) f) (128 * (t.val % 16) - 1) :=
    fun b f => by rw [if_pos h0]; exact reset_apply b f
  have hx := iblk_apply m c t
  unfold Inv
  rw [outsAt0_A m c t h0]
  dsimp only
  rw [Pieces.out_A, Pieces.sout_A]
  exact ⟨fun b f => carry_eq (Xc m c) _ _ (t.val / 16) (t.val % 16) (by omega) hx hcv b f,
    fun b p cc => out_eq (Xc m c) _ _ (t.val / 16) (t.val % 16) (by omega) hx hcv b p cc⟩

/-- Any other point: the carried array is what the point before left. -/
theorem inv_B (c : Dev nD) (t : Fin cfg0.N) (h0 : ¬t.val % 16 = 0)
    (ih : Inv m c (t.val - 1) (Nat.lt_of_le_of_lt (Nat.sub_le _ _) t.isLt)) : Inv m c t.val t.isLt := by
  have ht : t.val < 32 := lt_of_lt_of_eq t.isLt hN
  have e1 : (t.val - 1) / 16 = t.val / 16 := by omega
  have e2 : 128 * ((t.val - 1) % 16) + 127 = 128 * (t.val % 16) - 1 := by omega
  have hcv : ∀ (b f : Fin 64), (outsAt0 m c (t.val - 1) (Nat.lt_of_le_of_lt (Nat.sub_le _ _) t.isLt)).2 (ix2 b f)
      = if t.val % 16 = 0 then 0 else Fill.ff (series (Xc m c) (row (t.val / 16) b) f) (128 * (t.val % 16) - 1) :=
    fun b f => by rw [if_neg h0, ih.1 b f, e1, e2]
  have hx := iblk_apply m c t
  unfold Inv
  rw [outsAt0_B m c t h0]
  dsimp only
  rw [Pieces.out_B, Pieces.sout_B]
  exact ⟨fun b f => carry_eq (Xc m c) _ _ (t.val / 16) (t.val % 16) (by omega) hx hcv b f,
    fun b p cc => out_eq (Xc m c) _ _ (t.val / 16) (t.val % 16) (by omega) hx hcv b p cc⟩

/-- After every point. -/
theorem inv (c : Dev nD) : ∀ (n : ℕ) (h : n < cfg0.N), Inv m c n h
  | 0, h => inv_A m c ⟨0, h⟩ rfl
  | n + 1, h => by
    by_cases h0 : (n + 1) % 16 = 0
    · exact inv_A m c ⟨n + 1, h⟩ h0
    · exact inv_B m c ⟨n + 1, h⟩ h0 (inv c n (Nat.lt_of_succ_lt h))

/-- What a point writes back is its block of the specification of the input array. -/
theorem flushed_eq (c : Dev nD) (t : Fin cfg0.N) :
    (dats m 0 c).flushed 1 t = ((cfg0.win 1).blk t).view.read (Elt Ideal) (G (Xc m c)) := by
  rw [Value.flushed1]
  funext j
  obtain ⟨b, p, cc, rfl⟩ : ∃ (b : Fin 64) (p : Fin 128) (cc : Fin 128), j = (ix3 b p cc : S64x128x128.Idx) :=
    ⟨j 0, j 1, j 2, eq_ix3 j⟩
  show (outsAt0 m c t.val t.isLt).1 (ix3 b p cc) = G (Xc m c) (((cfg0.win 1).blk t).view.emb (ix3 b p cc))
  rw [emb_out t b p cc]
  exact (inv m c t.val t.isLt).2 b p cc

/-- The result array after the run. -/
theorem final (c : Dev nD) : (dats m 0 c).arrAt 1 cfg0.N = G (Xc m c) :=
  (dats m 0 c).arrAt_eq_of_cover 1 (G (Xc m c)) (fun t _ => flushed_eq m c t) cover

/-- The run: the result array ends at the specification of the input array, the input array unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.FillValue

end
-- ==== Proof.LibTypedRef.lean ====
/-
  Contents carried to a typed buffer reference and back.

  A module-local function of a host program names its buffers by references that carry the type of the tensor value
  they hold; contents stated at that type are moved to the buffer's own type, and back, along the equation between
  the two.  Moving there and back again, in either order, changes nothing.  Any signature, any value types.
-/
import Idealize.ShloMosaic.Lib.StableHlo

noncomputable section

namespace Cert.Lib.TypedRef

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, hd, hs⟩ := x
  subst h
  rfl

/-- Contents of the buffer moved to the value's type and back are the contents. -/
theorem toBuf_ofBuf (x : TRef sig T) (w : x.ref.ty.Contents Val) : x.toBuf (x.ofBuf w) = w := by
  obtain ⟨r, h, hd, hs⟩ := x
  subst h
  rfl

end Cert.Lib.TypedRef

end
-- ==== Proof.LibJoinCongr.lean ====
/-
  Joining two arrays along an axis respects equality of the pieces.

  The join's side condition speaks only of the pieces' shapes, so replacing each piece by an equal one of the same
  shape leaves the condition as it is.  Stated as a congruence rule for the two pieces.
-/
import Idealize.ShloMosaic.PureOps.ShapeOps

namespace Cert.Lib.JoinCongr

open Idealize.ShloMosaic

/-- Two pieces joined along an axis: equal pieces give equal joins. -/
theorem concatenate_pair_congr {α : Type} {t : Shape} {d : Fin t.rank} {s1 s2 : Shape} {a a' : s1.Idx → α} {b b' : s2.Idx → α}
    (h : Shape.Concatenates ([(⟨s1, a⟩ : (s : Shape) × (s.Idx → α)), ⟨s2, b⟩].map (·.1)) t d) (ha : a = a') (hb : b = b') :
    concatenate t d [⟨s1, a⟩, ⟨s2, b⟩] h = concatenate t d [⟨s1, a'⟩, ⟨s2, b'⟩] h := by
  subst ha; subst hb; rfl

end Cert.Lib.JoinCongr
-- ==== Proof.RefRunOps.lean ====
/-
  The reference program as a straight line of 43 host operations, cut into four stretches: up to the running maximum
  of the last-valid positions; its maximum with zero; the row lookup along the time axis; the final choice, the
  indicator and the join.  Running one stretch after another is running the whole line.
-/
import proofs.«107866_j72773925864084_2_alg».proof.Proof.ReadP
import proofs.«107866_j72773925864084_2_alg».proof.Proof.LibTypedRef
import proofs.«107866_j72773925864084_2_alg».proof.Proof.LibJoinCongr
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–12: the zero test, the time index, the per-position numbers and their running maximum. -/
abbrev seg1 : List (HloOp τ sig (Elt F)) :=
  [ nullary main_cst (constant S_ .f32 0x00000000#32),
    unary main_cst main_v0 (broadcastInDim S128x2048x64 ![] bcast_S_S128x2048x64 : (⟨S_, .f32⟩ : BufTy).Contents (Elt F) → (⟨S128x2048x64, .f32⟩ : BufTy).Contents (Elt F)),
    binary main_arg0 main_v0 main_v1 (cmpf .oeq : (⟨S128x2048x64, .f32⟩ : BufTy).Contents (Elt F) → (⟨S128x2048x64, .f32⟩ : BufTy).Contents (Elt F) → (⟨S128x2048x64, .i1⟩ : BufTy).Contents (Elt F)),
    nullary main_v2 (iotaInDim S2048 32 0),
    unary main_v2 main_v3 (broadcastInDim S1x2048x1 ![1] bcast_S2048_S1x2048x1_1 : (⟨S2048, .i32⟩ : BufTy).Contents (Elt F) → (⟨S1x2048x1, .i32⟩ : BufTy).Contents (Elt F)),
    nullary main_c (constantI S_ 32 4294967295#32),
    TRef.unary (TRef.of (T := ⟨S_, .i32⟩) main_c) (TRef.of (T := ⟨S128x2048x64, .i32⟩) main_call0_v0) (broadcastInDim S128x2048x64 ![] bcast_S_S128x2048x64),
    TRef.unary (TRef.of (T := ⟨S1x2048x1, .i32⟩) main_v3) (TRef.of (T := ⟨S128x2048x64, .i32⟩) main_call0_v1) (broadcastInDim S128x2048x64 ![0, 1, 2] bcast_S1x2048x1_S128x2048x64_0_1_2),
    TRef.ternary (TRef.of (T := ⟨S128x2048x64, .i1⟩) main_v1) (TRef.of (T := ⟨S128x2048x64, .i32⟩) main_call0_v0) (TRef.of (T := ⟨S128x2048x64, .i32⟩) main_call0_v1) (TRef.of (T := ⟨S128x2048x64, .i32⟩) main_v4) select,
    TRef.nullary (TRef.of (T := ⟨S_, .i32⟩) main_call1_c) (constantI S_ 32 2147483648#32),
    TRef.unary (TRef.of (T := ⟨S_, .i32⟩) main_call1_c) (TRef.of (T := ⟨S_, .i32⟩) main_call1_v0) (broadcastInDim S_ ![] bcast_S_S_),
    TRef.binary (TRef.of (T := ⟨S128x2048x64, .i32⟩) main_v4) (TRef.of (T := ⟨S_, .i32⟩) main_call1_v0) (TRef.of (T := ⟨S128x2048x64, .i32⟩) main_v5) (fun x v => Host.reduceWindow IntOp.maxsi ![1, 2048, 1] ![1, 1, 1] ![0, 2047, 0] ![0, 0, 0] x v reduceWindows_S128x2048x64_S128x2048x64_w1s1p0_0_w2048s1p2047_0_w1s1p0_0 h_S_) ]

/-- Operations 13–15: the running maximum joined with zero. -/
abbrev seg2 : List (HloOp τ sig (Elt F)) :=
  [ nullary main_c_0 (constantI S_ 32 0#32),
    unary main_c_0 main_v6 (broadcastInDim S128x2048x64 ![] bcast_S_S128x2048x64 : (⟨S_, .i32⟩ : BufTy).Contents (Elt F) → (⟨S128x2048x64, .i32⟩ : BufTy).Contents (Elt F)),
    binary main_v5 main_v6 main_v7 (maxsi : (⟨S128x2048x64, .i32⟩ : BufTy).Contents (Elt F) → (⟨S128x2048x64, .i32⟩ : BufTy).Contents (Elt F) → (⟨S128x2048x64, .i32⟩ : BufTy).Contents (Elt F)) ]

/-- Operations 16–37: the lookup along the time axis at those positions. -/
abbrev seg3 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S128x2048x64, .i32⟩) main_call2_v0) (broadcastInDim S128x2048x64 ![] bcast_S_S128x2048x64),
    TRef.binary (TRef.of (T := ⟨S128x2048x64, .i32⟩) main_v7) (TRef.of (T := ⟨S128x2048x64, .i32⟩) main_call2_v0) (TRef.of (T := ⟨S128x2048x64, .i1⟩) main_call2_v1) (cmpi .slt),
    TRef.nullary (TRef.of (T := ⟨S_, .i32⟩) main_call2_c_0) (constantI S_ 32 2048#32),
    TRef.unary (TRef.of (T := ⟨S_, .i32⟩) main_call2_c_0) (TRef.of (T := ⟨S128x2048x64, .i32⟩) main_call2_v2) (broadcastInDim S128x2048x64 ![] bcast_S_S128x2048x64),
    TRef.binary (TRef.of (T := ⟨S128x2048x64, .i32⟩) main_v7) (TRef.of (T := ⟨S128x2048x64, .i32⟩) main_call2_v2) (TRef.of (T := ⟨S128x2048x64, .i32⟩) main_call2_v3) addi,
    TRef.ternary (TRef.of (T := ⟨S128x2048x64, .i1⟩) main_call2_v1) (TRef.of (T := ⟨S128x2048x64, .i32⟩) main_call2_v3) (TRef.of (T := ⟨S128x2048x64, .i32⟩) main_v7) (TRef.of (T := ⟨S128x2048x64, .i32⟩) main_call2_v4) select,
    TRef.reshape (TRef.of (T := ⟨S128x2048x64, .i32⟩) main_call2_v4) (TRef.of (T := ⟨S128x2048x64x1, .i32⟩) main_call2_v5) rfl shapeCasts_S128x2048x64_S128x2048x64x1,
    TRef.nullary (TRef.of (T := ⟨S1, .i32⟩) main_call2_c_1) (constantI S1 32 2047#32),
    TRef.nullary (TRef.of (T := ⟨S_, .i32⟩) main_call2_c_2) (constantI S_ 32 0#32),
    TRef.unary (TRef.of (T := ⟨S_, .i32⟩) main_call2_c_2) (TRef.of (T := ⟨S128x2048x64x1, .i32⟩) main_call2_v6) (broadcastInDim S128x2048x64x1 ![] bcast_S_S128x2048x64x1),
    TRef.binary (TRef.of (T := ⟨S128x2048x64x1, .i32⟩) main_call2_v5) (TRef.of (T := ⟨S128x2048x64x1, .i32⟩) main_call2_v6) (TRef.of (T := ⟨S128x2048x64x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S128x2048x64x1, .i32⟩) main_call2_v9) (broadcastInDim S128x2048x64x1 ![0, 1, 2, 3] bcast_S1x1x1x1_S128x2048x64x1_0_1_2_3),
    TRef.binary (TRef.of (T := ⟨S128x2048x64x1, .i32⟩) main_call2_v5) (TRef.of (T := ⟨S128x2048x64x1, .i32⟩) main_call2_v9) (TRef.of (T := ⟨S128x2048x64x1, .i1⟩) main_call2_v10) (cmpi .sle),
    TRef.binary (TRef.of (T := ⟨S128x2048x64x1, .i1⟩) main_call2_v7) (TRef.of (T := ⟨S128x2048x64x1, .i1⟩) main_call2_v10) (TRef.of (T := ⟨S128x2048x64x1, .i1⟩) main_call2_v11) andi,
    TRef.nullary (TRef.of (T := ⟨S_, .i1⟩) main_call2_c_3) (constantI S_ 1 1#1),
    TRef.binary (TRef.of (T := ⟨S128x2048x64x1, .i1⟩) main_call2_v11) (TRef.of (T := ⟨S_, .i1⟩) main_call2_c_3) (TRef.of (T := ⟨S128x2048x64, .i1⟩) main_call2_v12) (fun x v => Host.reduce IntOp.andi x v reducesTo_S128x2048x64x1_S128x2048x64_d3 h_S_),
    TRef.binary (TRef.of (T := ⟨S128x2048x64, .f32⟩) main_arg0) (TRef.of (T := ⟨S128x2048x64x1, .i32⟩) main_call2_v5) (TRef.of (T := ⟨S128x2048x64, .f32⟩) main_call2_v13) (fun x i => Host.gather gather_S128x2048x64_S128x2048x64x1_S128x2048x64_n_1_02_02_1_3_111 x i),
    TRef.nullary (TRef.of (T := ⟨S_, .f32⟩) main_call2_cst) (constant S_ .f32 0x7FC00000#32),
    TRef.unary (TRef.of (T := ⟨S_, .f32⟩) main_call2_cst) (TRef.of (T := ⟨S128x2048x64, .f32⟩) main_call2_v14) (broadcastInDim S128x2048x64 ![] bcast_S_S128x2048x64),
    TRef.ternary (TRef.of (T := ⟨S128x2048x64, .i1⟩) main_call2_v12) (TRef.of (T := ⟨S128x2048x64, .f32⟩) main_call2_v13) (TRef.of (T := ⟨S128x2048x64, .f32⟩) main_call2_v14) (TRef.of (T := ⟨S128x2048x64, .f32⟩) main_v8) select ]

/-- Operations 38–43: the choice between the looked-up entry and the entry itself, the indicator, the join. -/
abbrev seg4 : List (HloOp τ sig (Elt F)) :=
  [ nullary main_c_1 (constantI S_ 32 0#32),
    unary main_c_1 main_v9 (broadcastInDim S128x2048x64 ![] bcast_S_S128x2048x64 : (⟨S_, .i32⟩ : BufTy).Contents (Elt F) → (⟨S128x2048x64, .i32⟩ : BufTy).Contents (Elt F)),
    binary main_v5 main_v9 main_v10 (cmpi .sge : (⟨S128x2048x64, .i32⟩ : BufTy).Contents (Elt F) → (⟨S128x2048x64, .i32⟩ : BufTy).Contents (Elt F) → (⟨S128x2048x64, .i1⟩ : BufTy).Contents (Elt F)),
    TRef.ternary (TRef.of (T := ⟨S128x2048x64, .i1⟩) main_v10) (TRef.of (T := ⟨S128x2048x64, .f32⟩) main_v8) (TRef.of (T := ⟨S128x2048x64, .f32⟩) main_arg0) (TRef.of (T := ⟨S128x2048x64, .f32⟩) main_v11) select,
    unary main_v1 main_v12 (uitofp .f32 : (⟨S128x2048x64, .i1⟩ : BufTy).Contents (Elt F) → (⟨S128x2048x64, .f32⟩ : BufTy).Contents (Elt F)),
    binary main_v11 main_v12 main_v13 ((fun a b => concatenate S128x2048x128 2 [⟨S128x2048x64, a⟩, ⟨S128x2048x64, b⟩] concatenates_S128x2048x64_S128x2048x64_S128x2048x128_d2) : (⟨S128x2048x64, .f32⟩ : BufTy).Contents (Elt F) → (⟨S128x2048x64, .f32⟩ : BufTy).Contents (Elt F) → (⟨S128x2048x128, .f32⟩ : BufTy).Contents (Elt F)) ]

/-- @main's operations, in order. -/
abbrev ops : List (HloOp τ sig (Elt F)) := seg1 ++ (seg2 ++ (seg3 ++ seg4))

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_sub : (ops : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., ternary_bufs_sub .., unary_bufs_sub .., binary_bufs_sub ..⟩

/-- Operations run one stretch after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.RefRun

end
-- ==== Proof.RefRunSeg1.lean ====
/-
  The first stretch of the reference, read: the running maximum and the zero test as values of the argument array.
-/
import proofs.«107866_j72773925864084_2_alg».proof.Proof.RefRunOps
import proofs.«107866_j72773925864084_2_alg».proof.Proof.LibTypedRef
import proofs.«107866_j72773925864084_2_alg».proof.Proof.LibJoinCongr

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.TypedRef (ofBuf_toBuf toBuf_ofBuf)

variable {F : FTy → Type} [FloatOps F]

attribute [local congr] Cert.Lib.JoinCongr.concatenate_pair_congr

variable (x0 : (⟨S128x2048x64, .f32⟩ : BufTy).Contents (Elt F)) (W : Valuation τ sig (Elt F))

set_option maxRecDepth 65536 in
set_option maxHeartbeats 400000 in
/-- After the first stretch the running-maximum buffer holds its value of the argument array, -/
theorem seg1_v5 (h0 : W (Proc.devRef .tc main_arg0) = x0) :
    after seg1 W (Proc.devRef .tc main_v5) = ReadP.val_main_v5 (F := F) x0 := by
  after_results_simp
  try simp only [ofBuf_toBuf, toBuf_ofBuf, TRef.toBuf, TRef.ofBuf, cast_eq]
  rw [h0]
  simp only [ReadP.val_main_v5, ReadP.val_main_v4, ReadP.val_main_v1, ReadP.val_main_v0, ReadP.val_main_cst, ReadP.val_main_call0_v0, ReadP.val_main_call0_v1, ReadP.val_main_c, ReadP.val_main_v3, ReadP.val_main_v2, ReadP.val_main_call1_v0, ReadP.val_main_call1_c]
set_option maxRecDepth 65536 in
set_option maxHeartbeats 400000 in
/-- the zero test its value, -/
theorem seg1_v1 (h0 : W (Proc.devRef .tc main_arg0) = x0) :
    after seg1 W (Proc.devRef .tc main_v1) = ReadP.val_main_v1 (F := F) x0 := by
  after_results_simp
  try simp only [ofBuf_toBuf, toBuf_ofBuf, TRef.toBuf, TRef.ofBuf, cast_eq]
  rw [h0]
  simp only [ReadP.val_main_v1, ReadP.val_main_v0, ReadP.val_main_cst]
/-- and the argument is untouched. -/
theorem seg1_arg0 : after seg1 W (Proc.devRef .tc main_arg0) = W (Proc.devRef .tc main_arg0) := by
  after_results_simp

end Cert.ReferenceIdeal.RefRun

end
-- ==== Proof.RefRunSeg2.lean ====
/-
  The second stretch of the reference, read: the running maximum joined with zero.
-/
import proofs.«107866_j72773925864084_2_alg».proof.Proof.RefRunOps
import proofs.«107866_j72773925864084_2_alg».proof.Proof.LibTypedRef
import proofs.«107866_j72773925864084_2_alg».proof.Proof.LibJoinCongr

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.TypedRef (ofBuf_toBuf toBuf_ofBuf)

variable {F : FTy → Type} [FloatOps F]

attribute [local congr] Cert.Lib.JoinCongr.concatenate_pair_congr

variable (x0 : (⟨S128x2048x64, .f32⟩ : BufTy).Contents (Elt F)) (W : Valuation τ sig (Elt F))

set_option maxRecDepth 65536 in
set_option maxHeartbeats 400000 in
/-- The second stretch joins the running maximum with zero, -/
theorem seg2_v7 (h5 : W (Proc.devRef .tc main_v5) = ReadP.val_main_v5 (F := F) x0) :
    after seg2 W (Proc.devRef .tc main_v7) = ReadP.val_main_v7 (F := F) x0 := by
  after_results_simp
  try simp only [ofBuf_toBuf, toBuf_ofBuf, TRef.toBuf, TRef.ofBuf, cast_eq]
  rw [h5]
  simp only [ReadP.val_main_v7, ReadP.val_main_v6, ReadP.val_main_c_0]
/-- and touches nothing it reads. -/
theorem seg2_v5 : after seg2 W (Proc.devRef .tc main_v5) = W (Proc.devRef .tc main_v5) := by after_results_simp
theorem seg2_v1 : after seg2 W (Proc.devRef .tc main_v1) = W (Proc.devRef .tc main_v1) := by after_results_simp
theorem seg2_arg0 : after seg2 W (Proc.devRef .tc main_arg0) = W (Proc.devRef .tc main_arg0) := by after_results_simp

end Cert.ReferenceIdeal.RefRun

end
-- ==== Proof.RefRunSeg3.lean ====
/-
  The third stretch of the reference, read: the lookup of the argument's rows along the time axis, itself in three parts — the start indices, the in-range test, the gather and the choice.
-/
import proofs.«107866_j72773925864084_2_alg».proof.Proof.RefRunOps
import proofs.«107866_j72773925864084_2_alg».proof.Proof.LibTypedRef
import proofs.«107866_j72773925864084_2_alg».proof.Proof.LibJoinCongr

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.TypedRef (ofBuf_toBuf toBuf_ofBuf)

variable {F : FTy → Type} [FloatOps F]

attribute [local congr] Cert.Lib.JoinCongr.concatenate_pair_congr

variable (x0 : (⟨S128x2048x64, .f32⟩ : BufTy).Contents (Elt F)) (W : Valuation τ sig (Elt F))

/-- The start indices: a negative index wrapped, the result with a trailing unit axis. -/
abbrev seg3a : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S128x2048x64, .i32⟩) main_call2_v0) (broadcastInDim S128x2048x64 ![] bcast_S_S128x2048x64),
    TRef.binary (TRef.of (T := ⟨S128x2048x64, .i32⟩) main_v7) (TRef.of (T := ⟨S128x2048x64, .i32⟩) main_call2_v0) (TRef.of (T := ⟨S128x2048x64, .i1⟩) main_call2_v1) (cmpi .slt),
    TRef.nullary (TRef.of (T := ⟨S_, .i32⟩) main_call2_c_0) (constantI S_ 32 2048#32),
    TRef.unary (TRef.of (T := ⟨S_, .i32⟩) main_call2_c_0) (TRef.of (T := ⟨S128x2048x64, .i32⟩) main_call2_v2) (broadcastInDim S128x2048x64 ![] bcast_S_S128x2048x64),
    TRef.binary (TRef.of (T := ⟨S128x2048x64, .i32⟩) main_v7) (TRef.of (T := ⟨S128x2048x64, .i32⟩) main_call2_v2) (TRef.of (T := ⟨S128x2048x64, .i32⟩) main_call2_v3) addi,
    TRef.ternary (TRef.of (T := ⟨S128x2048x64, .i1⟩) main_call2_v1) (TRef.of (T := ⟨S128x2048x64, .i32⟩) main_call2_v3) (TRef.of (T := ⟨S128x2048x64, .i32⟩) main_v7) (TRef.of (T := ⟨S128x2048x64, .i32⟩) main_call2_v4) select,
    TRef.reshape (TRef.of (T := ⟨S128x2048x64, .i32⟩) main_call2_v4) (TRef.of (T := ⟨S128x2048x64x1, .i32⟩) main_call2_v5) rfl shapeCasts_S128x2048x64_S128x2048x64x1 ]

/-- The in-range test of the start indices. -/
abbrev seg3b : List (HloOp τ sig (Elt F)) :=
  [ TRef.nullary (TRef.of (T := ⟨S1, .i32⟩) main_call2_c_1) (constantI S1 32 2047#32),
    TRef.nullary (TRef.of (T := ⟨S_, .i32⟩) main_call2_c_2) (constantI S_ 32 0#32),
    TRef.unary (TRef.of (T := ⟨S_, .i32⟩) main_call2_c_2) (TRef.of (T := ⟨S128x2048x64x1, .i32⟩) main_call2_v6) (broadcastInDim S128x2048x64x1 ![] bcast_S_S128x2048x64x1),
    TRef.binary (TRef.of (T := ⟨S128x2048x64x1, .i32⟩) main_call2_v5) (TRef.of (T := ⟨S128x2048x64x1, .i32⟩) main_call2_v6) (TRef.of (T := ⟨S128x2048x64x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S128x2048x64x1, .i32⟩) main_call2_v9) (broadcastInDim S128x2048x64x1 ![0, 1, 2, 3] bcast_S1x1x1x1_S128x2048x64x1_0_1_2_3),
    TRef.binary (TRef.of (T := ⟨S128x2048x64x1, .i32⟩) main_call2_v5) (TRef.of (T := ⟨S128x2048x64x1, .i32⟩) main_call2_v9) (TRef.of (T := ⟨S128x2048x64x1, .i1⟩) main_call2_v10) (cmpi .sle),
    TRef.binary (TRef.of (T := ⟨S128x2048x64x1, .i1⟩) main_call2_v7) (TRef.of (T := ⟨S128x2048x64x1, .i1⟩) main_call2_v10) (TRef.of (T := ⟨S128x2048x64x1, .i1⟩) main_call2_v11) andi,
    TRef.nullary (TRef.of (T := ⟨S_, .i1⟩) main_call2_c_3) (constantI S_ 1 1#1),
    TRef.binary (TRef.of (T := ⟨S128x2048x64x1, .i1⟩) main_call2_v11) (TRef.of (T := ⟨S_, .i1⟩) main_call2_c_3) (TRef.of (T := ⟨S128x2048x64, .i1⟩) main_call2_v12) (fun x v => Host.reduce IntOp.andi x v reducesTo_S128x2048x64x1_S128x2048x64_d3 h_S_) ]

/-- The gather, and the choice between it and the out-of-range filler. -/
abbrev seg3c : List (HloOp τ sig (Elt F)) :=
  [ TRef.binary (TRef.of (T := ⟨S128x2048x64, .f32⟩) main_arg0) (TRef.of (T := ⟨S128x2048x64x1, .i32⟩) main_call2_v5) (TRef.of (T := ⟨S128x2048x64, .f32⟩) main_call2_v13) (fun x i => Host.gather gather_S128x2048x64_S128x2048x64x1_S128x2048x64_n_1_02_02_1_3_111 x i),
    TRef.nullary (TRef.of (T := ⟨S_, .f32⟩) main_call2_cst) (constant S_ .f32 0x7FC00000#32),
    TRef.unary (TRef.of (T := ⟨S_, .f32⟩) main_call2_cst) (TRef.of (T := ⟨S128x2048x64, .f32⟩) main_call2_v14) (broadcastInDim S128x2048x64 ![] bcast_S_S128x2048x64),
    TRef.ternary (TRef.of (T := ⟨S128x2048x64, .i1⟩) main_call2_v12) (TRef.of (T := ⟨S128x2048x64, .f32⟩) main_call2_v13) (TRef.of (T := ⟨S128x2048x64, .f32⟩) main_call2_v14) (TRef.of (T := ⟨S128x2048x64, .f32⟩) main_v8) select ]

theorem seg3_split : (seg3 : List (HloOp τ sig (Elt F))) = seg3a ++ (seg3b ++ seg3c) := rfl

set_option maxRecDepth 65536 in
set_option maxHeartbeats 400000 in
theorem seg3a_v5 (h7 : W (Proc.devRef .tc main_v7) = ReadP.val_main_v7 (F := F) x0) :
    after seg3a W (Proc.devRef .tc main_call2_v5) = ReadP.val_main_call2_v5 (F := F) x0 := by
  after_results_simp
  try simp only [ofBuf_toBuf, toBuf_ofBuf, TRef.toBuf, TRef.ofBuf, cast_eq]
  rw [h7]
  simp only [ReadP.val_main_call2_v5, ReadP.val_main_call2_v4, ReadP.val_main_call2_v1, ReadP.val_main_call2_v3, ReadP.val_main_call2_v0, ReadP.val_main_call2_c, ReadP.val_main_call2_v2, ReadP.val_main_call2_c_0]
  rfl
theorem seg3a_arg0 : after seg3a W (Proc.devRef .tc main_arg0) = W (Proc.devRef .tc main_arg0) := by after_results_simp

set_option maxRecDepth 65536 in
set_option maxHeartbeats 400000 in
theorem seg3b_v12 (h5 : W (Proc.devRef .tc main_call2_v5) = ReadP.val_main_call2_v5 (F := F) x0) :
    after seg3b W (Proc.devRef .tc main_call2_v12) = ReadP.val_main_call2_v12 (F := F) x0 := by
  after_results_simp
  try simp only [ofBuf_toBuf, toBuf_ofBuf, TRef.toBuf, TRef.ofBuf, cast_eq]
  rw [h5]
  simp only [ReadP.val_main_call2_v12, ReadP.val_main_call2_v11, ReadP.val_main_call2_c_3, ReadP.val_main_call2_v7, ReadP.val_main_call2_v10, ReadP.val_main_call2_v6, ReadP.val_main_call2_c_2, ReadP.val_main_call2_v9, ReadP.val_main_call2_v8, ReadP.val_main_call2_c_1]
theorem seg3b_v5 : after seg3b W (Proc.devRef .tc main_call2_v5) = W (Proc.devRef .tc main_call2_v5) := by after_results_simp
theorem seg3b_arg0 : after seg3b W (Proc.devRef .tc main_arg0) = W (Proc.devRef .tc main_arg0) := by after_results_simp

set_option maxRecDepth 65536 in
set_option maxHeartbeats 400000 in
theorem seg3c_v8 (h12 : W (Proc.devRef .tc main_call2_v12) = ReadP.val_main_call2_v12 (F := F) x0)
    (h5 : W (Proc.devRef .tc main_call2_v5) = ReadP.val_main_call2_v5 (F := F) x0) (h0 : W (Proc.devRef .tc main_arg0) = x0) :
    after seg3c W (Proc.devRef .tc main_v8) = ReadP.val_main_v8 (F := F) x0 := by
  after_results_simp
  try simp only [ofBuf_toBuf, toBuf_ofBuf, TRef.toBuf, TRef.ofBuf, cast_eq]
  rw [h12, h5, h0]
  simp only [ReadP.val_main_v8, ReadP.val_main_call2_v13, ReadP.val_main_call2_v14, ReadP.val_main_call2_cst]

/-- The third stretch looks the argument's rows up at those positions, -/
theorem seg3_v8 (h7 : W (Proc.devRef .tc main_v7) = ReadP.val_main_v7 (F := F) x0) (h0 : W (Proc.devRef .tc main_arg0) = x0) :
    after seg3 W (Proc.devRef .tc main_v8) = ReadP.val_main_v8 (F := F) x0 := by
  rw [seg3_split, after_append, after_append]
  have a5 := seg3a_v5 x0 W h7
  have a0 := (seg3a_arg0 W).trans h0
  have b12 := seg3b_v12 x0 (after seg3a W) a5
  have b5 := (seg3b_v5 (after seg3a W)).trans a5
  have b0 := (seg3b_arg0 (after seg3a W)).trans a0
  exact seg3c_v8 x0 _ b12 b5 b0
/-- and touches nothing the later operations read besides. -/
theorem seg3_v5 : after seg3 W (Proc.devRef .tc main_v5) = W (Proc.devRef .tc main_v5) := by after_results_simp
theorem seg3_v1 : after seg3 W (Proc.devRef .tc main_v1) = W (Proc.devRef .tc main_v1) := by after_results_simp
theorem seg3_arg0 : after seg3 W (Proc.devRef .tc main_arg0) = W (Proc.devRef .tc main_arg0) := by after_results_simp

end Cert.ReferenceIdeal.RefRun

end
-- ==== Proof.RefRunSeg4.lean ====
/-
  The last stretch of the reference, read: the choice, the indicator and the join.
-/
import proofs.«107866_j72773925864084_2_alg».proof.Proof.RefRunOps
import proofs.«107866_j72773925864084_2_alg».proof.Proof.LibTypedRef
import proofs.«107866_j72773925864084_2_alg».proof.Proof.LibJoinCongr

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.TypedRef (ofBuf_toBuf toBuf_ofBuf)

variable {F : FTy → Type} [FloatOps F]

attribute [local congr] Cert.Lib.JoinCongr.concatenate_pair_congr

variable (x0 : (⟨S128x2048x64, .f32⟩ : BufTy).Contents (Elt F)) (W : Valuation τ sig (Elt F))

set_option maxRecDepth 65536 in
set_option maxHeartbeats 400000 in
/-- The last stretch chooses, converts and joins. -/
theorem seg4_v13 (h5 : W (Proc.devRef .tc main_v5) = ReadP.val_main_v5 (F := F) x0)
    (h8 : W (Proc.devRef .tc main_v8) = ReadP.val_main_v8 (F := F) x0) (h0 : W (Proc.devRef .tc main_arg0) = x0)
    (h1 : W (Proc.devRef .tc main_v1) = ReadP.val_main_v1 (F := F) x0) :
    after seg4 W (Proc.devRef .tc main_v13) = ReadP.val_main_v13 (F := F) x0 := by
  after_results_simp
  try simp only [ofBuf_toBuf, toBuf_ofBuf, TRef.toBuf, TRef.ofBuf, cast_eq]
  rw [h5, h8, h0, h1]
  simp only [ReadP.val_main_v13, ReadP.val_main_v11, ReadP.val_main_v12, ReadP.val_main_v10, ReadP.val_main_v9, ReadP.val_main_c_1]
theorem seg4_arg0 : after seg4 W (Proc.devRef .tc main_arg0) = W (Proc.devRef .tc main_arg0) := by after_results_simp

end Cert.ReferenceIdeal.RefRun

end
-- ==== Proof.RefRun.lean ====
/-
  The reference program's run, read back stage by stage.

  The reference is a straight line of 43 host operations.  Its run ends with every buffer at the operations' results
  folded over the launch contents.  That fold is read in four stretches — up to the running maximum of the last-valid
  positions; its maximum with zero; the row lookup along the time axis; the final choice, the indicator and the join —
  each stretch against the per-operation values of the read-at-an-index module, so that a value used by several later
  operations is named once and never copied.  The result: the output buffer ends at `val_main_v13` of the argument
  array, the argument unchanged.
-/
import proofs.«107866_j72773925864084_2_alg».proof.Proof.RefRunSeg1
import proofs.«107866_j72773925864084_2_alg».proof.Proof.RefRunSeg2
import proofs.«107866_j72773925864084_2_alg».proof.Proof.RefRunSeg3
import proofs.«107866_j72773925864084_2_alg».proof.Proof.RefRunSeg4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line: the output buffer ends at the last stage's value of the argument array. -/
theorem result_eq (V : Valuation τ sig (Elt F)) :
    after ops V (Proc.devRef .tc main_v13) = ReadP.val_main_v13 (F := F) (V (Proc.devRef .tc main_arg0)) := by
  show after (seg1 ++ (seg2 ++ (seg3 ++ seg4))) V _ = _
  rw [after_append, after_append, after_append]
  have a0 := seg1_arg0 V
  have a5 := seg1_v5 _ V rfl
  have a1 := seg1_v1 _ V rfl
  have b0 := (seg2_arg0 (after seg1 V)).trans a0
  have b5 := (seg2_v5 (after seg1 V)).trans a5
  have b1 := (seg2_v1 (after seg1 V)).trans a1
  have b7 := seg2_v7 _ (after seg1 V) a5
  have c0 := (seg3_arg0 (after seg2 (after seg1 V))).trans b0
  have c5 := (seg3_v5 (after seg2 (after seg1 V))).trans b5
  have c1 := (seg3_v1 (after seg2 (after seg1 V))).trans b1
  have c8 := seg3_v8 _ (after seg2 (after seg1 V)) b7 b0
  exact seg4_v13 _ _ c5 c8 c0 c1

/-- The argument is written by no operation. -/
theorem arg0_eq (V : Valuation τ sig (Elt F)) :
    after ops V (Proc.devRef .tc main_arg0) = V (Proc.devRef .tc main_arg0) := by
  show after (seg1 ++ (seg2 ++ (seg3 ++ seg4))) V _ = _
  rw [after_append, after_append, after_append]
  exact (seg4_arg0 _).trans ((seg3_arg0 _).trans ((seg2_arg0 _).trans (seg1_arg0 V)))

/-- On every device, for any float values, from any memory with zero counters: every weakly fair execution of @main
    terminates with the result buffer at the last stage's value of the argument array and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = ReadP.val_main_v13 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v13).trans (result_eq _), (h c main_arg0).trans (arg0_eq _)⟩)
    (run_seq scopedRefs_eq scopedSems_eq defs main (fun _ => ops) main_eq (fun _ => ops_sub) m ρ)

end Cert.ReferenceIdeal.RefRun

end
-- ==== Proof.RefValueCummax.lean ====
/-
  The reference's running maximum, at an index.

  Per position the reference writes −1 at a zero entry and the time step elsewhere, then takes the running maximum
  along the time axis as a window reduction: a window of 2048 positions ending at the time step, padded in front with
  the least 32-bit integer.  Read at (b, t, f) the window reduction is a left fold of the signed maximum over the
  positions 0 … t of the feature's series, and that fold is the last nonzero position at or before t, −1 when there is
  none — as a 32-bit word.
-/
import proofs.«107866_j72773925864084_2_alg».proof.Proof.ReadP
import proofs.«107866_j72773925864084_2_alg».proof.Proof.Spec
import Idealize.ShloMosaic.Lib.ValueIdx
import Idealize.ShloMosaic.PureOps.Ideal.Laws

noncomputable section

namespace Cert.RefFill

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP Cert.FillSpec

/-- The index before the running maximum: minus one at a zero entry, the time step elsewhere. -/
theorem v4_at (x0 : FVec Ideal SX .f32) (b : Fin 128) (t : Fin 2048) (f : Fin 64) :
    val_main_v4 (F := Ideal) x0 (ix3 b t f)
      = if x0 (ix3 b t f) = 0 then 4294967295#32 else BitVec.ofNat 32 t.val := by
  rw [val_main_v4_apply, val_main_v1_apply, val_main_call0_v0_apply, val_main_c_apply, val_main_call0_v1_apply,
    val_main_v3_apply, val_main_v2_apply, val_main_v0_apply, val_main_cst_apply]
  show Scalar.select (Ideal.cmp .oeq (x0 (ix3 b t f)) (Ideal.ofBits .f32 0x00000000#32)) _ _ = _
  rw [Ideal.ofBits_zero_f32]
  by_cases h : x0 (ix3 b t f) = 0
  · rw [if_pos h, h]
    have : Ideal.cmp .oeq (0 : EReal) 0 = 1#1 := by
      show BitVec.ofBool (decide ((0 : EReal) = 0)) = 1#1
      rw [decide_eq_true rfl]; rfl
    rw [this, select_one]
  · rw [if_neg h]
    have : Ideal.cmp .oeq (x0 (ix3 b t f)) 0 = 0#1 := by
      show BitVec.ofBool (decide (x0 (ix3 b t f) = 0)) = 0#1
      rw [decide_eq_false h]; rfl
    rw [this, select_zero]

/-- A word that is a small integer reads back as that integer. -/
theorem toInt_ofInt32 (a : ℤ) (h1 : -2147483648 ≤ a) (h2 : a < 2147483648) : (BitVec.ofInt 32 a).toInt = a := by
  rw [BitVec.toInt_ofInt]
  exact Int.bmod_eq_of_le (by omega) (by omega)

/-- The signed maximum of two words that are small integers is the word of the integers' maximum. -/
theorem maxsi_ofInt (a b : ℤ) (ha1 : -2147483648 ≤ a) (ha2 : a < 2147483648) (hb1 : -2147483648 ≤ b) (hb2 : b < 2147483648) :
    IntOp.maxsi (BitVec.ofInt 32 a) (BitVec.ofInt 32 b) = BitVec.ofInt 32 (max a b) := by
  unfold IntOp.maxsi
  by_cases h : b < a
  · have hs : (BitVec.ofInt 32 b).slt (BitVec.ofInt 32 a) = true := by
      rw [BitVec.slt_iff_toInt_lt, toInt_ofInt32 a ha1 ha2, toInt_ofInt32 b hb1 hb2]; exact h
    rw [if_pos hs, max_eq_left (le_of_lt h)]
  · have hs : ¬ (BitVec.ofInt 32 b).slt (BitVec.ofInt 32 a) = true := by
      rw [BitVec.slt_iff_toInt_lt, toInt_ofInt32 a ha1 ha2, toInt_ofInt32 b hb1 hb2]; exact h
    rw [if_neg hs, max_eq_right (not_lt.mp h)]

/-- A left fold of signed maxima over words that are small integers is the word of the integers' fold. -/
theorem foldl_maxsi_ofInt (g : ℕ → ℤ) :
    ∀ (l : List ℕ) (m : ℤ), (∀ k ∈ l, -2147483648 ≤ g k ∧ g k < 2147483648) → -2147483648 ≤ m → m < 2147483648 →
      l.foldl (fun r k => IntOp.maxsi r (BitVec.ofInt 32 (g k))) (BitVec.ofInt 32 m)
        = BitVec.ofInt 32 (l.foldl (fun r k => max r (g k)) m)
  | [], m, _, _, _ => rfl
  | k :: l, m, hg, h1, h2 => by
    have hk := hg k List.mem_cons_self
    rw [List.foldl_cons, List.foldl_cons, maxsi_ofInt m (g k) h1 h2 hk.1 hk.2]
    exact foldl_maxsi_ofInt g l (max m (g k)) (fun k' hk' => hg k' (List.mem_cons_of_mem _ hk'))
      (le_max_of_le_left h1) (max_lt h2 hk.2)

/-- The window of 2048 positions ending at time step `t`, its first `2047 - t` positions padding: the running
    maximum of the positions' values over the window is the last nonzero position at or before `t`. -/
theorem foldl_window {α : Type} [Zero α] [DecidableEq α] (s : ℕ → α) (t : ℕ) (ht : t < 2048) :
    ∀ m : ℕ, (List.range m).foldl
        (fun r n => max r (if 2047 ≤ t + n then Fill.vi s (t + n - 2047) else -2147483648)) (-2147483648 : ℤ)
      = if 2047 < t + m then Fill.lv s (t + m - 2048) else -2147483648
  | 0 => by
    rw [List.range_zero, List.foldl_nil, if_neg (by omega)]
  | m + 1 => by
    rw [List.range_succ, List.foldl_append, foldl_window s t ht m, List.foldl_cons, List.foldl_nil]
    by_cases h1 : t + m < 2047
    · rw [if_neg (by omega), if_neg (by omega), if_neg (by omega), max_self]
    · by_cases h2 : t + m = 2047
      · rw [if_neg (by omega), if_pos (by omega), if_pos (by omega)]
        have e1 : t + m - 2047 = 0 := by omega
        have e2 : t + (m + 1) - 2048 = 0 := by omega
        rw [e1, e2, Fill.lv_zero]
        have := (Fill.lv_bounds s 0).1
        rw [Fill.lv_zero] at this
        exact max_eq_right (by omega)
      · rw [if_pos (by omega), if_pos (by omega), if_pos (by omega)]
        have e1 : t + m - 2047 = (t + m - 2048) + 1 := by omega
        have e2 : t + (m + 1) - 2048 = (t + m - 2048) + 1 := by omega
        rw [e1, e2, Fill.lv_succ_max]

theorem window_numel : (⟨3, ![1, 2048, 1]⟩ : Shape).numel = 2048 := by decide

/-- The coordinates of position `n` of the window shape `1 × 2048 × 1`. -/
theorem window_coords (n : Fin (⟨3, ![1, 2048, 1]⟩ : Shape).numel) :
    ((⟨3, ![1, 2048, 1]⟩ : Shape).rowMajor.symm n 0).val = 0
      ∧ ((⟨3, ![1, 2048, 1]⟩ : Shape).rowMajor.symm n 1).val = n.val
      ∧ ((⟨3, ![1, 2048, 1]⟩ : Shape).rowMajor.symm n 2).val = 0 := by
  have h := Shape.rowMajor_val_three ((⟨3, ![1, 2048, 1]⟩ : Shape).rowMajor.symm n)
  rw [Equiv.apply_symm_apply] at h
  have h' : n.val = (((⟨3, ![1, 2048, 1]⟩ : Shape).rowMajor.symm n 0).val * 2048
      + ((⟨3, ![1, 2048, 1]⟩ : Shape).rowMajor.symm n 1).val) * 1
      + ((⟨3, ![1, 2048, 1]⟩ : Shape).rowMajor.symm n 2).val := h
  have h0 : ((⟨3, ![1, 2048, 1]⟩ : Shape).rowMajor.symm n 0).val < 1 := ((⟨3, ![1, 2048, 1]⟩ : Shape).rowMajor.symm n 0).isLt
  have h2 : ((⟨3, ![1, 2048, 1]⟩ : Shape).rowMajor.symm n 2).val < 1 := ((⟨3, ![1, 2048, 1]⟩ : Shape).rowMajor.symm n 2).isLt
  omega

/-- Two dependent conditionals with equivalent conditions, equal values where both hold and the same default. -/
theorem dite_congr_iff {P Q : Prop} {dP : Decidable P} {dQ : Decidable Q} {α : Sort _} {a : P → α} {b : Q → α} {c : α}
    (hPQ : P ↔ Q) (hab : ∀ hp hq, a hp = b hq) : @dite α P dP a (fun _ => c) = @dite α Q dQ b (fun _ => c) := by
  by_cases hp : P
  · rw [dif_pos hp, dif_pos (hPQ.mp hp)]; exact hab _ _
  · rw [dif_neg hp, dif_neg (fun hq => hp (hPQ.mpr hq))]

/-- The reduce-window of this program at an index: a left fold of the signed maximum over the 2048 window
    positions, position `n` holding the operand at time step `t + n - 2047` when that is a time step and the
    initial value when it is padding. -/
theorem reduceWindow_at (x : S128x2048x64.Idx → BitVec 32) (init : S_.Idx → BitVec 32)
    (h : S128x2048x64.ReduceWindows (![1, 2048, 1] : Fin 3 → Nat) ![1, 1, 1] ![0, 2047, 0] ![0, 0, 0] S128x2048x64)
    (hu : 0 < S_.numel) (b : Fin 128) (t : Fin 2048) (f : Fin 64) :
    Host.reduceWindow IntOp.maxsi (![1, 2048, 1] : Fin 3 → Nat) ![1, 1, 1] ![0, 2047, 0] ![0, 0, 0] x init h hu (ix3 b t f)
      = (List.range 2048).foldl (fun r n => IntOp.maxsi r
          (if hn : 2047 ≤ t.val + n ∧ t.val + n - 2047 < 2048 then x (ix3 b ⟨t.val + n - 2047, hn.2⟩ f)
           else init (Shape.Idx.first hu))) (init (Shape.Idx.first hu)) := by
  unfold Host.reduceWindow
  show (List.finRange (⟨3, ![1, 2048, 1]⟩ : Shape).numel).foldl _ _ = _
  rw [show (List.range 2048) = List.range (⟨3, ![1, 2048, 1]⟩ : Shape).numel from by rw [window_numel],
    ← List.map_coe_finRange_eq_range, List.foldl_map]
  refine congrArg (fun F => List.foldl F (init (Shape.Idx.first hu)) (List.finRange (⟨3, ![1, 2048, 1]⟩ : Shape).numel))
    (funext fun r => funext fun n => ?_)
  obtain ⟨c0, c1, c2⟩ := window_coords n
  have hb : b.val < 128 := b.isLt
  have ht : t.val < 2048 := t.isLt
  have hf : f.val < 64 := f.isLt
  have hnn : n.val < 2048 := lt_of_lt_of_eq n.isLt window_numel
  show IntOp.maxsi r _ = IntOp.maxsi r _
  refine congrArg (IntOp.maxsi r) (dite_congr_iff ⟨fun hin => ?_, fun hn a => ?_⟩ (fun hin hn => ?_))
  · have h1 := hin 1
    have h1' : 2047 ≤ t.val * 1 + ((⟨3, ![1, 2048, 1]⟩ : Shape).rowMajor.symm n 1).val
      ∧ t.val * 1 + ((⟨3, ![1, 2048, 1]⟩ : Shape).rowMajor.symm n 1).val - 2047 < 2048 := h1
    omega
  · match a with
    | ⟨0, _⟩ => exact ⟨Nat.zero_le _, by
        show b.val * 1 + ((⟨3, ![1, 2048, 1]⟩ : Shape).rowMajor.symm n 0).val - 0 < 128; omega⟩
    | ⟨1, _⟩ => exact ⟨by show 2047 ≤ t.val * 1 + ((⟨3, ![1, 2048, 1]⟩ : Shape).rowMajor.symm n 1).val; omega, by
        show t.val * 1 + ((⟨3, ![1, 2048, 1]⟩ : Shape).rowMajor.symm n 1).val - 2047 < 2048; omega⟩
    | ⟨2, _⟩ => exact ⟨Nat.zero_le _, by
        show f.val * 1 + ((⟨3, ![1, 2048, 1]⟩ : Shape).rowMajor.symm n 2).val - 0 < 64; omega⟩
  · refine congrArg x (funext fun a => ?_)
    match a with
    | ⟨0, _⟩ => exact Fin.ext (by
        show b.val * 1 + ((⟨3, ![1, 2048, 1]⟩ : Shape).rowMajor.symm n 0).val - 0 = b.val; omega)
    | ⟨1, _⟩ => exact Fin.ext (by
        show t.val * 1 + ((⟨3, ![1, 2048, 1]⟩ : Shape).rowMajor.symm n 1).val - 2047 = t.val + n.val - 2047; omega)
    | ⟨2, _⟩ => exact Fin.ext (by
        show f.val * 1 + ((⟨3, ![1, 2048, 1]⟩ : Shape).rowMajor.symm n 2).val - 0 = f.val; omega)

/-- The position value of a sequence is minus one or the position. -/
theorem vi_bounds {α : Type} [Zero α] [DecidableEq α] (s : ℕ → α) (q : ℕ) : -1 ≤ Fill.vi s q ∧ Fill.vi s q ≤ q := by
  unfold Fill.vi
  split <;> omega

/-- THE RUNNING MAXIMUM AT AN INDEX: the word of the last nonzero position of the feature's sequence at or before
    `t`, minus one when there is none. -/
theorem v5_at (x0 : FVec Ideal SX .f32) (b : Fin 128) (t : Fin 2048) (f : Fin 64) :
    val_main_v5 (F := Ideal) x0 (ix3 b t f) = BitVec.ofInt 32 (Fill.lv (series x0 b f) t.val) := by
  have ht : t.val < 2048 := t.isLt
  have hinit : val_main_call1_v0 (F := Ideal) (Shape.Idx.first h_S_) = BitVec.ofInt 32 (-2147483648) := by
    rw [val_main_call1_v0_apply, val_main_call1_c_apply]; decide
  unfold val_main_v5
  rw [reduceWindow_at, hinit]
  refine (List.foldl_ext _ (fun r n => IntOp.maxsi r (BitVec.ofInt 32
    (if 2047 ≤ t.val + n then Fill.vi (series x0 b f) (t.val + n - 2047) else -2147483648))) _ (fun r n hn => ?_)).trans ?_
  · have hn' : n < 2048 := List.mem_range.mp hn
    refine congrArg (IntOp.maxsi r) ?_
    by_cases hc : 2047 ≤ t.val + n
    · have hc2 : 2047 ≤ t.val + n ∧ t.val + n - 2047 < 2048 := ⟨hc, by omega⟩
      rw [dif_pos hc2, if_pos hc, v4_at]
      unfold Fill.vi
      rw [series_of_lt x0 b f _ hc2.2]
      by_cases hz : x0 (ix3 b ⟨t.val + n - 2047, hc2.2⟩ f) = 0
      · rw [if_pos hz, if_pos hz]; decide
      · rw [if_neg hz, if_neg hz, BitVec.ofInt_natCast]
    · rw [dif_neg (fun h => hc h.1), if_neg hc]
  · rw [foldl_maxsi_ofInt _ _ _ (fun k hk => ?_) (by omega) (by omega), foldl_window _ _ ht 2048,
      if_pos (by omega), Nat.add_sub_cancel]
    have hk' : k < 2048 := List.mem_range.mp hk
    by_cases hc : 2047 ≤ t.val + k
    · rw [if_pos hc]
      have := vi_bounds (series x0 b f) (t.val + k - 2047)
      omega
    · rw [if_neg hc]; omega

end Cert.RefFill

end
-- ==== Proof.RefValueGather.lean ====
/-
  The reference's row lookup, at an index.

  The lookup along the time axis is a gather whose start index, per (b, t, f), is one 32-bit word naming a time step.
  When that word is the word of a time step k below 2048, the gather reads the input at (b, k, f), and the accompanying
  in-range test (0 ≤ index ≤ 2047, reduced over a unit axis) is true.
-/
import proofs.«107866_j72773925864084_2_alg».proof.Proof.ReadP
import proofs.«107866_j72773925864084_2_alg».proof.Proof.Spec
import Idealize.ShloMosaic.Lib.ValueIdx
import Idealize.ShloMosaic.Lib.ReduceAll
import Idealize.ShloMosaic.PureOps.Reduce

noncomputable section

namespace Cert.RefFill

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- A position below 2048 as a 32-bit word, read signed, is the position. -/
theorem toInt_ofNat_small (k : ℕ) (hk : k < 2048) : (BitVec.ofNat 32 k).toInt = (k : ℤ) := by
  have h1 : (BitVec.ofNat 32 k).toNat = k := by
    rw [BitVec.toNat_ofNat]; exact Nat.mod_eq_of_lt (by omega)
  rw [BitVec.toInt_eq_toNat_of_lt (by rw [h1]; omega), h1]

/-- The gather's dimension numbers: batch axes 0 and 2, the start index on axis 1. -/
abbrev gd : GatherDims S128x2048x64 S128x2048x64x1 S128x2048x64 :=
  gather_S128x2048x64_S128x2048x64x1_S128x2048x64_n_1_02_02_1_3_111

/-- When the start index at (b, t, f) is the word of a position k, the gather reads the operand at (b, k, f). -/
theorem gather_apply (x0 : FVec Ideal Cert.FillSpec.SX .f32) (b : Fin 128) (t : Fin 2048) (f : Fin 64) (k : Fin 2048)
    (hk : val_main_call2_v5 (F := Ideal) x0 (ix4 b t f (0 : Fin 1)) = BitVec.ofNat 32 k.val) :
    val_main_call2_v13 (F := Ideal) x0 (ix3 b t f) = x0 (ix3 b k f) := by
  unfold val_main_call2_v13 Host.gather
  refine congrArg x0 (funext fun a => Fin.ext ?_)
  match a with
  | ⟨0, _⟩ =>
    show gd.start (ix3 b t f) (val_main_call2_v5 (F := Ideal) x0) 0 + gd.batchCoord (ix3 b t f) 0 + gd.offCoord (ix3 b t f) 0 = b.val
    rw [GatherDims.start_batching _ _ _ _ (by decide),
      GatherDims.offCoord_eq_zero _ _ _ (fun h => ((GatherDims.mem_sKept _ _).mp h).2 (by decide)), Nat.zero_add, Nat.add_zero]
    rfl
  | ⟨1, _⟩ =>
    show gd.start (ix3 b t f) (val_main_call2_v5 (F := Ideal) x0) 1 + gd.batchCoord (ix3 b t f) 1 + gd.offCoord (ix3 b t f) 1 = k.val
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 3) ∈ gd.startIndexMap from by decide)]
    have hsi : gd.siIdx (ix3 b t f) ⟨List.idxOf (1 : Fin 3) gd.startIndexMap,
        List.idxOf_lt_length_iff.2 (by decide)⟩ = ix4 b t f (0 : Fin 1) := by
      funext c; refine Fin.ext ?_
      match c with
      | ⟨0, _⟩ => rfl
      | ⟨1, _⟩ => rfl
      | ⟨2, _⟩ => rfl
      | ⟨3, _⟩ => rfl
    rw [hsi, hk, toInt_ofNat_small k.val k.isLt]
    show min ((k.val : ℤ)).toNat (2048 - 1) = k.val
    have := k.isLt
    rw [Int.toNat_natCast]
    omega
  | ⟨2, _⟩ =>
    show gd.start (ix3 b t f) (val_main_call2_v5 (F := Ideal) x0) 2 + gd.batchCoord (ix3 b t f) 2 + gd.offCoord (ix3 b t f) 2 = f.val
    rw [GatherDims.start_batching _ _ _ _ (by decide),
      GatherDims.offCoord_eq_zero _ _ _ (fun h => ((GatherDims.mem_sKept _ _).mp h).2 (by decide)), Nat.zero_add, Nat.add_zero]
    rfl

/-- A fold over the one-element index set is one application of the operation. -/
theorem fold_fin1 {β : Type} (op : β → β → β) [Std.Commutative op] [Std.Associative op] (init : β) (g : Fin 1 → β) :
    (Finset.univ : Finset (Fin 1)).fold op init g = op (g 0) init := by
  rw [Finset.univ_unique, Finset.fold_singleton]; rfl

/-- When the start index at (b, t, f) is the word of a position k below 2048, it lies in [0, 2047]: the mask is 1. -/
theorem inb_apply (x0 : FVec Ideal Cert.FillSpec.SX .f32) (b : Fin 128) (t : Fin 2048) (f : Fin 64) (k : Fin 2048)
    (hk : val_main_call2_v5 (F := Ideal) x0 (ix4 b t f (0 : Fin 1)) = BitVec.ofNat 32 k.val) :
    val_main_call2_v12 (F := Ideal) x0 (ix3 b t f) = 1#1 := by
  have hR : S128x2048x64x1.Reduces [(3 : Fin 4)] S128x2048x64 := by decide
  unfold val_main_call2_v12
  rw [Host.reduce_eq_fold_single IntOp.andi _ _ reducesTo_S128x2048x64x1_S128x2048x64_d3 hR h_S_ (ix3 b t f)]
  refine (fold_fin1 IntOp.andi _ _).trans ?_
  have hl : hR.lift (ix3 b t f) (0 : Fin 1) = ix4 b t f (0 : Fin 1) := by
    funext c; refine Fin.ext ?_
    match c with
    | ⟨0, _⟩ => rfl
    | ⟨1, _⟩ => rfl
    | ⟨2, _⟩ => rfl
    | ⟨3, _⟩ => rfl
  show IntOp.andi (val_main_call2_v11 (F := Ideal) x0 (hR.lift (ix3 b t f) (0 : Fin 1))) 1#1 = 1#1
  rw [hl, val_main_call2_v11_apply, val_main_call2_v7_apply, val_main_call2_v10_apply, hk,
    val_main_call2_v6_apply, val_main_call2_c_2_apply, val_main_call2_v9_apply, val_main_call2_v8_apply,
    val_main_call2_c_1_apply]
  have hk' := toInt_ofNat_small k.val k.isLt
  have hlt := k.isLt
  refine IntOp.andi_eq_one.2 ⟨IntOp.andi_eq_one.2 ⟨IntOp.cmpi_sge.2 ?_, IntOp.cmpi_sle.2 ?_⟩, rfl⟩
  · rw [hk']; show (0 : ℤ) ≤ _; omega
  · rw [hk']; show _ ≤ (2047 : ℤ); omega

end Cert.RefFill
end
-- ==== Proof.RefValue.lean ====
/-
  The reference's value is the specification.

  The start index of the lookup is the last nonzero position joined with zero; so where a nonzero entry has been seen
  the looked-up entry is the entry at the last nonzero position, and where none has been seen the reference keeps the
  entry itself, which is zero.  Either way that is the forward fill.  The indicator half is the zero test read as a
  number.  Joined along the last axis the two halves are the specification, entry by entry.
-/
import proofs.«107866_j72773925864084_2_alg».proof.Proof.ReadP
import proofs.«107866_j72773925864084_2_alg».proof.Proof.Spec
import proofs.«107866_j72773925864084_2_alg».proof.Proof.RefValueCummax
import proofs.«107866_j72773925864084_2_alg».proof.Proof.RefValueGather
import Idealize.ShloMosaic.Lib.ValueIdx
import Idealize.ShloMosaic.PureOps.Ideal.Laws
import Idealize.ShloMosaic.Lib.Pipeline.Value

noncomputable section

namespace Cert.RefFill

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP Cert.FillSpec

/-- The index the gather reads with, before its reshape: the last nonzero position, or zero when there is none. -/
theorem v7_at (x0 : FVec Ideal SX .f32) (b : Fin 128) (t : Fin 2048) (f : Fin 64) :
    val_main_v7 (F := Ideal) x0 (ix3 b t f) = BitVec.ofInt 32 (max (Fill.lv (series x0 b f) t.val) 0) := by
  rw [val_main_v7_apply, v5_at, val_main_v6_apply, val_main_c_0_apply]
  have hL := Fill.lv_bounds (series x0 b f) t.val
  have ht := t.isLt
  exact maxsi_ofInt _ 0 (by omega) (by omega) (by omega) (by omega)

/-- The reshape to a trailing unit axis reads the same coordinates. -/
theorem idx5_at (b : Fin 128) (t : Fin 2048) (f : Fin 64) :
    idx_main_call2_v5 (ix4 b t f (0 : Fin 1)) = ix3 b t f := by
  have hb := b.isLt
  have ht := t.isLt
  have hf := f.isLt
  funext a
  match a with
  | ⟨0, _⟩ => exact Fin.ext (by show (((b.val * 2048 + t.val) * 64 + f.val) * 1 + 0) / 131072 = b.val; omega)
  | ⟨1, _⟩ => exact Fin.ext (by show (((b.val * 2048 + t.val) * 64 + f.val) * 1 + 0) / 64 % 2048 = t.val; omega)
  | ⟨2, _⟩ => exact Fin.ext (by show (((b.val * 2048 + t.val) * 64 + f.val) * 1 + 0) % 64 = f.val; omega)

/-- The start index of the gather at `(b, t, f)`, as a word. -/
theorem start_word (x0 : FVec Ideal SX .f32) (b : Fin 128) (t : Fin 2048) (f : Fin 64) :
    val_main_call2_v5 (F := Ideal) x0 (ix4 b t f (0 : Fin 1))
      = BitVec.ofNat 32 (max (Fill.lv (series x0 b f) t.val) 0).toNat := by
  have hL := Fill.lv_bounds (series x0 b f) t.val
  have ht := t.isLt
  rw [val_main_call2_v5_apply, idx5_at, val_main_call2_v4_apply, val_main_call2_v1_apply, v7_at,
    val_main_call2_v0_apply, val_main_call2_c_apply]
  have hcmp : IntOp.cmpi .slt (BitVec.ofInt 32 (max (Fill.lv (series x0 b f) t.val) 0)) 0#32 = 0#1 := by
    show BitVec.ofBool ((BitVec.ofInt 32 (max (Fill.lv (series x0 b f) t.val) 0)).slt 0#32) = 0#1
    have hs : (BitVec.ofInt 32 (max (Fill.lv (series x0 b f) t.val) 0)).slt 0#32 = false := by
      rw [Bool.eq_false_iff]
      intro h
      rw [BitVec.slt_iff_toInt_lt, toInt_ofInt32 _ (by omega) (by omega), BitVec.toInt_zero] at h
      omega
    rw [hs]; rfl
  rw [hcmp, select_zero]
  conv_lhs => rw [← Int.toNat_of_nonneg (le_max_right (Fill.lv (series x0 b f) t.val) 0)]
  exact BitVec.ofInt_natCast _ _

/-- The imputed half at an index: the forward fill of the feature's sequence. -/
theorem left_at (x0 : FVec Ideal SX .f32) (b : Fin 128) (t : Fin 2048) (f : Fin 64) :
    val_main_v11 (F := Ideal) x0 (ix3 b t f) = Fill.ff (series x0 b f) t.val := by
  have hL := Fill.lv_bounds (series x0 b f) t.val
  have ht := t.isLt
  have hk := start_word x0 b t f
  rw [val_main_v11_apply, val_main_v10_apply, v5_at, val_main_v9_apply, val_main_c_1_apply, val_main_v8_apply,
    inb_apply x0 b t f ⟨(max (Fill.lv (series x0 b f) t.val) 0).toNat, by omega⟩ hk,
    gather_apply x0 b t f ⟨(max (Fill.lv (series x0 b f) t.val) 0).toNat, by omega⟩ hk, select_one, Fill.ff_eq_lv]
  by_cases h0 : 0 ≤ Fill.lv (series x0 b f) t.val
  · have hc : IntOp.cmpi .sge (BitVec.ofInt 32 (Fill.lv (series x0 b f) t.val)) 0#32 = 1#1 := by
      show BitVec.ofBool ((0#32 : BitVec 32).sle (BitVec.ofInt 32 (Fill.lv (series x0 b f) t.val))) = 1#1
      have hs : (0#32 : BitVec 32).sle (BitVec.ofInt 32 (Fill.lv (series x0 b f) t.val)) = true := by
        rw [BitVec.sle_iff_toInt_le, BitVec.toInt_zero, toInt_ofInt32 _ (by omega) (by omega)]; exact h0
      rw [hs]; rfl
    rw [hc, select_one, if_pos h0, series_of_lt x0 b f _ (show (Fill.lv (series x0 b f) t.val).toNat < 2048 by omega)]
    refine congrArg (fun k => x0 (ix3 b k f)) (Fin.ext ?_)
    show (max (Fill.lv (series x0 b f) t.val) 0).toNat = (Fill.lv (series x0 b f) t.val).toNat
    rw [max_eq_left h0]
  · have hc : IntOp.cmpi .sge (BitVec.ofInt 32 (Fill.lv (series x0 b f) t.val)) 0#32 = 0#1 := by
      show BitVec.ofBool ((0#32 : BitVec 32).sle (BitVec.ofInt 32 (Fill.lv (series x0 b f) t.val))) = 0#1
      have hs : (0#32 : BitVec 32).sle (BitVec.ofInt 32 (Fill.lv (series x0 b f) t.val)) = false := by
        rw [Bool.eq_false_iff]
        intro h
        rw [BitVec.sle_iff_toInt_le, BitVec.toInt_zero, toInt_ofInt32 _ (by omega) (by omega)] at h
        exact h0 h
      rw [hs]; rfl
    rw [hc, select_zero, if_neg h0, series_of_lt x0 b f t.val ht]

/-- The indicator half at an index: one at a zero entry, zero elsewhere. -/
theorem right_at (x0 : FVec Ideal SX .f32) (b : Fin 128) (t : Fin 2048) (f : Fin 64) :
    val_main_v12 (F := Ideal) x0 (ix3 b t f) = indicator x0 b t f := by
  rw [val_main_v12_apply, val_main_v1_apply, val_main_v0_apply, val_main_cst_apply]
  show (((Ideal.cmp .oeq (x0 (ix3 b t f)) (Ideal.ofBits .f32 0x00000000#32)).toNat : ℝ) : EReal) = _
  rw [Ideal.ofBits_zero_f32]
  unfold indicator
  by_cases hz : x0 (ix3 b t f) = 0
  · have hc : Ideal.cmp .oeq (x0 (ix3 b t f)) 0 = 1#1 := by
      show BitVec.ofBool (decide (x0 (ix3 b t f) = 0)) = 1#1
      rw [decide_eq_true hz]; rfl
    rw [if_pos hz, hc]
    show (((1 : ℕ) : ℝ) : EReal) = 1
    rw [Nat.cast_one, EReal.coe_one]
  · have hc : Ideal.cmp .oeq (x0 (ix3 b t f)) 0 = 0#1 := by
      show BitVec.ofBool (decide (x0 (ix3 b t f) = 0)) = 0#1
      rw [decide_eq_false hz]; rfl
    rw [if_neg hz, hc]
    show (((0 : ℕ) : ℝ) : EReal) = 0
    rw [Nat.cast_zero, EReal.coe_zero]

/-- THE REFERENCE'S VALUE IS THE SPECIFICATION. -/
theorem ref_is_spec (x0 : FVec Ideal SX .f32) : val_main_v13 (F := Ideal) x0 = G x0 := by
  funext i
  obtain ⟨b, t, c, rfl⟩ : ∃ b t c, i = ix3 b t c := ⟨i 0, i 1, i 2, eq_ix3 i⟩
  have hc := c.isLt
  unfold val_main_v13
  by_cases h : c.val < 64
  · rw [G_left x0 b t c h]
    refine (concatenate_pair_apply_left (t := S128x2048x128) (s₁ := S128x2048x64) (s₂ := S128x2048x64) (2 : Fin 3)
      (val_main_v11 (F := Ideal) x0) (val_main_v12 (F := Ideal) x0) concatenates_S128x2048x64_S128x2048x64_S128x2048x128_d2
      (ix3 b t c) rfl (ix3 b t (⟨c.val, h⟩ : Fin 64)) (fun a => ?_)).trans (left_at x0 b t ⟨c.val, h⟩)
    match a with
    | ⟨0, _⟩ => rfl
    | ⟨1, _⟩ => rfl
    | ⟨2, _⟩ => rfl
  · rw [G_right x0 b t c h]
    refine (concatenate_pair_apply_right (t := S128x2048x128) (s₁ := S128x2048x64) (s₂ := S128x2048x64) (2 : Fin 3)
      (val_main_v11 (F := Ideal) x0) (val_main_v12 (F := Ideal) x0) concatenates_S128x2048x64_S128x2048x64_S128x2048x128_d2
      (ix3 b t c) rfl rfl (ix3 b t (⟨c.val - 64, by omega⟩ : Fin 64)) (fun a ha => ?_) ?_).trans
      (right_at x0 b t ⟨c.val - 64, by omega⟩)
    · match a with
      | ⟨0, _⟩ => rfl
      | ⟨1, _⟩ => rfl
      | ⟨2, _⟩ => exact absurd rfl ha
    · show (c.val - 64) + 64 = c.val
      omega

end Cert.RefFill

end
-- ==== Proof.lean ====
/-
  Forward-fill imputation with missing-value indicators: the kernel against its reference.

  The input is x[b, t, f], 128 batch rows by 2048 time steps by 64 features; an entry equal to zero is "missing".  Both
  programs return 128 columns per (b, t): the entry of x[b, ·, f] at the last time step at or before t that is not zero
  (zero when there is none) in column f, and in column 64 + f the indicator of x[b, t, f] being zero.

  The kernel works block by block, 64 batch rows by 128 time steps: inside a block it finds the last nonzero entry by
  seven doubling rounds — after the round by s every position knows the last nonzero entry among the 2·s positions
  ending at it — and between the 16 blocks of a row it carries the filled value at the last time step seen, reset to
  zero at the first block.  The reference computes, per position, the index of the last nonzero entry as a running
  maximum of "−1 at a zero, the time step elsewhere", looks the entry up at that index, and keeps the entry itself
  where the index is −1.  Over the extended reals both are the one function `Cert.FillSpec.G` of the input array: the
  kernel by the window law of the doubling scan, the block law of forward filling and induction over the grid; the
  reference by the running maximum being the last nonzero position.  No step uses that the entries are finite: only
  comparisons with zero occur.

  The three frames: the two kernels' are the generated frame theorems; the reference's is its run, read back stage by
  stage, with the result dropped.  The idealization rewrote nothing, so `preserves` is trivial.
-/
import proofs.«107866_j72773925864084_2_alg».proof.Defs
import proofs.«107866_j72773925864084_2_alg».proof.Proof.Gen.Kernel
import proofs.«107866_j72773925864084_2_alg».proof.Proof.Gen.Kernel.Skeleton
import proofs.«107866_j72773925864084_2_alg».proof.Proof.Gen.Kernel.Launch
import proofs.«107866_j72773925864084_2_alg».proof.Proof.Gen.Kernel.Points
import proofs.«107866_j72773925864084_2_alg».proof.Proof.Gen.Kernel.Frame
import proofs.«107866_j72773925864084_2_alg».proof.Proof.Gen.KernelIdeal
import proofs.«107866_j72773925864084_2_alg».proof.Proof.Gen.KernelIdeal.Skeleton
import proofs.«107866_j72773925864084_2_alg».proof.Proof.Gen.KernelIdeal.Launch
import proofs.«107866_j72773925864084_2_alg».proof.Proof.Gen.KernelIdeal.Points
import proofs.«107866_j72773925864084_2_alg».proof.Proof.Gen.KernelIdeal.Frame
import proofs.«107866_j72773925864084_2_alg».proof.Proof.Gen.ReferenceIdeal
import proofs.«107866_j72773925864084_2_alg».proof.Proof.Gen.Pre_finite_inputs
import proofs.«107866_j72773925864084_2_alg».proof.Proof.Gen.KernelIdeal.Value
import proofs.«107866_j72773925864084_2_alg».proof.Proof.KernelValue
import proofs.«107866_j72773925864084_2_alg».proof.Proof.RefRun
import proofs.«107866_j72773925864084_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result at the specification of the input array, and the two input arrays agree. -/
theorem algebraic : Cert.algebraic_KernelIdeal_ReferenceIdeal := by
  intro m ρ m' ρ' _ hagree
  refine ⟨fun c => Cert.FillSpec.G (m ((c.tc : Thread Cert.KernelIdeal.nD Cert.KernelIdeal.τ).loc Cert.KernelIdeal.main_arg0)),
    Cert.KernelIdeal.FillValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.RefFill.ref_is_spec _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
